-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S256x128 : Shape := ⟨2, ![256, 128]⟩
abbrev S128 : Shape := ⟨1, ![128]⟩
abbrev S256x64 : Shape := ⟨2, ![256, 64]⟩
abbrev S64 : Shape := ⟨1, ![64]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x10000 .f32) (main_arg1 : FVec F S10000x128 .f32) (main_arg2 : FVec F S256x128 .f32) (main_arg3 : FVec F S128 .f32) (main_arg4 : FVec F S256x64 .f32) (main_arg5 : FVec F S64 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x10000 : Shape := ⟨2, ![10000, 10000]⟩
abbrev S10000x128 : Shape := ⟨2, ![10000, 128]⟩
abbrev S256x128 : Shape := ⟨2, ![256, 128]⟩
abbrev S128 : Shape := ⟨1, ![128]⟩
abbrev S256x64 : Shape := ⟨2, ![256, 64]⟩
abbrev S64 : Shape := ⟨1, ![64]⟩
abbrev S128x128 : Shape := ⟨2, ![128, 128]⟩
abbrev S1x128 : Shape := ⟨2, ![1, 128]⟩
abbrev S400x10000 : Shape := ⟨2, ![400, 10000]⟩
abbrev S400x128 : Shape := ⟨2, ![400, 128]⟩
abbrev S128x64 : Shape := ⟨2, ![128, 64]⟩
abbrev S1x64 : Shape := ⟨2, ![1, 64]⟩
abbrev S10000x64 : Shape := ⟨2, ![10000, 64]⟩
abbrev S400x64 : Shape := ⟨2, ![400, 64]⟩

abbrev nBuf : Space → Nat
  | .hbm => 19
  | .vmem => 20
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S256x128, .f32⟩
  | .hbm, ⟨3, _⟩ => ⟨S128, .f32⟩
  | .hbm, ⟨4, _⟩ => ⟨S256x64, .f32⟩
  | .hbm, ⟨5, _⟩ => ⟨S64, .f32⟩
  | .hbm, ⟨6, _⟩ => ⟨S10000x128, .bf16⟩
  | .hbm, ⟨7, _⟩ => ⟨S128x128, .f32⟩
  | .hbm, ⟨8, _⟩ => ⟨S128x128, .bf16⟩
  | .hbm, ⟨9, _⟩ => ⟨S128x128, .f32⟩
  | .hbm, ⟨10, _⟩ => ⟨S128x128, .bf16⟩
  | .hbm, ⟨11, _⟩ => ⟨S1x128, .f32⟩
  | .hbm, ⟨12, _⟩ => ⟨S10000x128, .bf16⟩
  | .hbm, ⟨13, _⟩ => ⟨S128x64, .f32⟩
  | .hbm, ⟨14, _⟩ => ⟨S128x64, .bf16⟩
  | .hbm, ⟨15, _⟩ => ⟨S128x64, .f32⟩
  | .hbm, ⟨16, _⟩ => ⟨S128x64, .bf16⟩
  | .hbm, ⟨17, _⟩ => ⟨S1x64, .f32⟩
  | .hbm, ⟨18, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S400x128, .bf16⟩
  | .local _ .vmem, ⟨4, _⟩ => ⟨S400x128, .bf16⟩
  | .local _ .vmem, ⟨5, _⟩ => ⟨S128x128, .bf16⟩
  | .local _ .vmem, ⟨6, _⟩ => ⟨S128x128, .bf16⟩
  | .local _ .vmem, ⟨7, _⟩ => ⟨S1x128, .f32⟩
  | .local _ .vmem, ⟨8, _⟩ => ⟨S400x128, .bf16⟩
  | .local _ .vmem, ⟨9, _⟩ => ⟨S400x128, .bf16⟩
  | .local _ .vmem, ⟨10, _⟩ => ⟨S400x10000, .f32⟩
  | .local _ .vmem, ⟨11, _⟩ => ⟨S400x10000, .f32⟩
  | .local _ .vmem, ⟨12, _⟩ => ⟨S10000x128, .bf16⟩
  | .local _ .vmem, ⟨13, _⟩ => ⟨S400x128, .bf16⟩
  | .local _ .vmem, ⟨14, _⟩ => ⟨S400x128, .bf16⟩
  | .local _ .vmem, ⟨15, _⟩ => ⟨S128x64, .bf16⟩
  | .local _ .vmem, ⟨16, _⟩ => ⟨S128x64, .bf16⟩
  | .local _ .vmem, ⟨17, _⟩ => ⟨S1x64, .f32⟩
  | .local _ .vmem, ⟨18, _⟩ => ⟨S400x64, .f32⟩
  | .local _ .vmem, ⟨19, _⟩ => ⟨S400x64, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  slices_S256x128_S128x128_0_0 : S256x128.Slices ![0, 0] S128x128
  slices_S256x128_S128x128_128_0 : S256x128.Slices ![128, 0] S128x128
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S400x128_S400x128_0_0 : ∀ a, (![0, 0] : Fin 2 → Nat) a + S400x128.size a ≤ S400x128.size a
  h_S400x128 : 0 < S400x128.numel
  shapeCasts_S400x128_S400x128 : S400x128.ShapeCasts S400x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  packedbf16_S400x128_S400x128_0_0 : (Rect.unit (s := S400x128) ![0, 0] S400x128.size inb_S400x128_S400x128_0_0).PackedRows (EltTy.packing .bf16)
  slices_S256x64_S128x64_0_0 : S256x64.Slices ![0, 0] S128x64
  slices_S256x64_S128x64_128_0 : S256x64.Slices ![128, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x64_S400x64_1_0_0_1_n_n_wf : DotDims.WF S400x128 S128x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .bf16 = 32 ∨ (Rect.block (s := S10000x128) S400x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .bf16 = 32 ∨ (Rect.block (s := S10000x128) S400x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .bf16 = 32 ∨ (Rect.block (s := S10000x128) S400x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .bf16 = 32 ∨ (Rect.block (s := S128x64) S128x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .bf16 = 32 ∨ (Rect.block (s := S128x64) S128x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x64.size a ≤ S10000x64.size a
  hwx1_6 : ∀ i : grid1.Coords, EltTy.bits .f32 = 32 ∨ (Rect.block (s := S10000x64) S400x64.size (cc1_transform_6 i) (hinb1_6 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S400x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S256x128 : Shape := ⟨2, ![256, 128]⟩
abbrev S128 : Shape := ⟨1, ![128]⟩
abbrev S256x64 : Shape := ⟨2, ![256, 64]⟩
abbrev S64 : Shape := ⟨1, ![64]⟩
abbrev S10000x256 : Shape := ⟨2, ![10000, 256]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 21
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S256x128, .f32⟩
  | .hbm, ⟨3, _⟩ => ⟨S128, .f32⟩
  | .hbm, ⟨4, _⟩ => ⟨S256x64, .f32⟩
  | .hbm, ⟨5, _⟩ => ⟨S64, .f32⟩
  | .hbm, ⟨6, _⟩ => ⟨S10000x128, .f32⟩
  | .hbm, ⟨7, _⟩ => ⟨S10000x256, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x256, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []
  dot_S10000x256_S256x64_S10000x64_1_0_0_1_n_n_wf : DotDims.WF S10000x256 S256x64 S10000x64 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf

class Facts : Prop extends Facts₀ where

variable [Facts]
-- ==== Proof.LibWholeAccess.lean ====
/-
  Accesses of a whole buffer, and a column broadcast along the rows.

  A load whose rectangle is the whole of a view reads what the view reads of the buffer; one store through that rectangle,
  read back, is the stored value, whatever the buffer held before; and an [a, 1] array broadcast to [a, b] reads, at
  (p, c), its one column at row p. None of the three mentions a program: they hold for any buffer signature, memory
  space, shape and element type.
-/
import Idealize.ShloMosaic.Lib.Pipeline.FrameBody
import Idealize.ShloMosaic.Lib.Pipeline.Value
import Idealize.ShloMosaic.Lib.ValueIdx

noncomputable section

namespace Cert.Lib

open Idealize.ShloMosaic Idealize.ShloMosaic.ValueIdx

/-- The zero offsets of a rank-two access are the constant function zero. -/
theorem zeros2 : (![0, 0] : Fin 2 → Nat) = fun _ => 0 := funext fun a => by fin_cases a <;> rfl

section Whole
variable {sig : RefSig} {κ : Kind} {sp : Space} {S : Shape} {e : EltTy} {Val : EltTy → Type}

/-- A load through the rectangle at zero offsets whose sizes are the shape's own — the whole of the view — reads what
    the view reads of the buffer. -/
theorem load_whole (v : View sig κ sp S e) (f : v.ty.Contents Val) {off : Fin S.rank → Nat} (h : off = fun _ => 0)
    (inb : ∀ a, off a + S.size a ≤ S.size a) : v.readAt Val (Rect.unit off S.size inb).toLoadRect f = v.read Val f := by
  rw [View.readAt_eq_ld]; exact View.ld_unit_zero h inb _

/-- One store of p through that rectangle, read back through the view, is p, whatever the buffer held before: the
    rectangle holds every index of the shape. -/
theorem read_store_whole [∀ e, Nonempty (Val e)] (v : View sig κ sp S e) (f : v.ty.Contents Val) {off : Fin S.rank → Nat}
    (h : off = fun _ => 0) (inb : ∀ a, off a + S.size a ≤ S.size a) (p : S.Idx → Val e) :
    v.read Val (v.writes Val f [⟨Rect.unit off S.size inb, p⟩]) = p := by
  rw [View.read_writes_eq_canon v f _ fun y => ⟨_, List.mem_singleton_self _, View.mem_set_unit_zero h inb y⟩]
  exact View.canon_unit_zero h inb p

/-- The last of several stores being through that rectangle, the view reads its value p back, whatever the earlier stores
    of the list and the buffer's contents before them were: the last store holds every index. -/
theorem read_store_whole_cons [∀ e, Nonempty (Val e)] (v : View sig κ sp S e) (f : v.ty.Contents Val) {off : Fin S.rank → Nat}
    (h : off = fun _ => 0) (inb : ∀ a, off a + S.size a ≤ S.size a) (p : S.Idx → Val e) (L : List (View.Piece Val S e)) :
    v.read Val (v.writes Val f (⟨Rect.unit off S.size inb, p⟩ :: L)) = p :=
  (View.read_writes_eq_canon v f _ fun y => ⟨_, List.mem_cons.mpr (Or.inl rfl), View.mem_set_unit_zero h inb y⟩).trans
    (View.canon_cons_unit_zero h inb p L)

end Whole

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.BodyKernel.lean ====
/-
  The two row-tiled passes of the program, each at the buffer contents its entry finds.

  A pass walks 25 tiles of 400 rows. At tile t its body is handed, in staging buffers, rows 400 t … 400 t + 399 of the
  dense 10000 by 10000 matrix, the whole 10000 by 128 feature matrix, rows 400 t … 400 t + 399 of the feature matrix
  again (through a second window on the same array), the two 128-row halves of the layer's weight matrix and the bias
  row; it loads all six, computes the layer on them and stores the 400 result rows, which are written back to rows
  400 t … 400 t + 399 of the result. Stated here, for any float instance: what a staging buffer holds when the body
  runs (an input's block, whether or not it was fetched at that tile), what the body leaves (the inputs as found, the
  output at the layer's arithmetic on the six blocks), and that the body, run from the one, reaches the other.
-/
import proofs.«133459_g36893769073013_cont_8to1_b_1682_2_alg».proof.Proof.Gen.Kernel.Launch
import proofs.«133459_g36893769073013_cont_8to1_b_1682_2_alg».proof.Proof.Gen.Kernel.Skeleton
import proofs.«133459_g36893769073013_cont_8to1_b_1682_2_alg».proof.Proof.Gen.Kernel.Points
import proofs.«133459_g36893769073013_cont_8to1_b_1682_2_alg».proof.Proof.LibWholeAccess
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: the first layer's row-tiled pass, at the buffer contents `V` its entry finds -/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: unfetched, the block index has
    not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: unfetched, the block index has
    not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: unfetched, the block index has
    not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: unfetched, the block index has
    not moved, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not: unfetched, the block index has
    not moved, and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not: unfetched, the block index has
    not moved, and the body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole of a staging buffer -/

abbrev r0_0 : Rect S400x10000 := Rect.unit (s := S400x10000) ![0, 0] S400x10000.size inb_S400x10000_S400x10000_0_0
abbrev r0_1 : Rect S10000x128 := Rect.unit (s := S10000x128) ![0, 0] S10000x128.size inb_S10000x128_S10000x128_0_0
abbrev r0_2 : Rect S400x128 := Rect.unit (s := S400x128) ![0, 0] S400x128.size inb_S400x128_S400x128_0_0
abbrev r0_3 : Rect S128x128 := Rect.unit (s := S128x128) ![0, 0] S128x128.size inb_S128x128_S128x128_0_0
abbrev r0_5 : Rect S1x128 := Rect.unit (s := S1x128) ![0, 0] S1x128.size inb_S1x128_S1x128_0_0
abbrev r0_6 : Rect S400x128 := Rect.unit (s := S400x128) ![0, 0] S400x128.size inb_S400x128_S400x128_0_0

/-- What the body leaves in the output window's staging buffer, from the six input blocks (in window order: the
    row tile of the dense matrix, the whole feature matrix, the feature rows of the tile, the two halves of the
    weight matrix, the bias row): its one store, of the layer's arithmetic on what the loads read. -/
def out0_6 (x0 : Vec F S400x10000 .f32) (x1 : Vec F S10000x128 .bf16) (x2 : Vec F S400x128 .bf16) (x3 : Vec F S128x128 .bf16)
    (x4 : Vec F S128x128 .bf16) (x5 : Vec F S1x128 .f32) : Vec F S400x128 .bf16 :=
  View.canon [⟨r0_6, k0_pay1 (View.ld x0 r0_0) (View.ld x1 r0_1) (View.ld x3 r0_3) (View.ld x2 r0_2) (View.ld x4 r0_3) (View.ld x5 r0_5)⟩]

/-- The one store goes through the whole buffer, so it covers it. -/
theorem cover0_6 (p0 : Vec F S400x128 .bf16) (y : S400x128.Idx) :
    ∃ pc ∈ ([⟨r0_6, p0⟩] : List (View.Piece (Elt F) S400x128 .bf16)), y ∈ pc.1.set :=
  ⟨_, List.mem_singleton_self _, View.mem_set_unit_zero Cert.Lib.zeros2 inb_S400x128_S400x128_0_0 y⟩

/-! ## The body's triple -/

set_option maxHeartbeats 2000000 in
/-- The kernel body on whole staging buffers, the inputs' at read contents `x0 … x5` and the output's at anything, runs
    to the continuation holding the inputs' as they were and the output's at `out0_6` of the inputs'. -/
theorem sound_kernel0 (c : Dev nD) (E : Set ℕ) (i : grid0.Coords)
    (arg1 : Memref sig .tc .vmem S400x10000 .f32) (harg1 : arg1.IsWhole) (arg2 : Memref sig .tc .vmem S10000x128 .bf16) (harg2 : arg2.IsWhole)
    (arg3 : Memref sig .tc .vmem S400x128 .bf16) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S400x128 .bf16) (harg7 : arg7.IsWhole)
    (x0 : Vec F S400x10000 .f32) (x1 : Vec F S10000x128 .bf16) (x2 : Vec F S400x128 .bf16) (x3 : Vec F S128x128 .bf16)
    (x4 : Vec F S128x128 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__layer_body i arg1 harg1 arg2 harg2 arg3 harg3 arg4 harg4 arg5 harg5 arg6 harg6 arg7 harg7) K := by
  simp only [cc0__layer_body_eq_skeleton]; unfold cc0__layer_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of this pass on core `c`: the arrays as the region finds them; after the body at point `t` each
    input's buffer at its block and the output's at `out0_6` of the input blocks; the invariant the scoped rest and the
    generator register, untouched; nothing owed. The feature matrix is read through two windows (whole, and the tile's
    rows): each holds one half of its share; every other array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

/-! # Region 1: the second layer's row-tiled pass, at the buffer contents `V` its entry finds -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: unfetched, the block index has
    not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: unfetched, the block index has
    not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: unfetched, the block index has
    not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not: unfetched, the block index has
    not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not: unfetched, the block index has
    not moved, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not: unfetched, the block index has
    not moved, and the body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole of a staging buffer -/

abbrev r1_0 : Rect S400x10000 := Rect.unit (s := S400x10000) ![0, 0] S400x10000.size inb_S400x10000_S400x10000_0_0
abbrev r1_1 : Rect S10000x128 := Rect.unit (s := S10000x128) ![0, 0] S10000x128.size inb_S10000x128_S10000x128_0_0
abbrev r1_2 : Rect S400x128 := Rect.unit (s := S400x128) ![0, 0] S400x128.size inb_S400x128_S400x128_0_0
abbrev r1_3 : Rect S128x64 := Rect.unit (s := S128x64) ![0, 0] S128x64.size inb_S128x64_S128x64_0_0
abbrev r1_5 : Rect S1x64 := Rect.unit (s := S1x64) ![0, 0] S1x64.size inb_S1x64_S1x64_0_0
abbrev r1_6 : Rect S400x64 := Rect.unit (s := S400x64) ![0, 0] S400x64.size inb_S400x64_S400x64_0_0

/-- What the body leaves in the output window's staging buffer, from the six input blocks (in window order: the
    row tile of the dense matrix, the whole feature matrix, the feature rows of the tile, the two halves of the
    weight matrix, the bias row): its one store, of the layer's arithmetic on what the loads read. -/
def out1_6 (x0 : Vec F S400x10000 .f32) (x1 : Vec F S10000x128 .bf16) (x2 : Vec F S400x128 .bf16) (x3 : Vec F S128x64 .bf16)
    (x4 : Vec F S128x64 .bf16) (x5 : Vec F S1x64 .f32) : Vec F S400x64 .f32 :=
  View.canon [⟨r1_6, k1_pay1 (View.ld x0 r1_0) (View.ld x1 r1_1) (View.ld x3 r1_3) (View.ld x2 r1_2) (View.ld x4 r1_3) (View.ld x5 r1_5)⟩]

/-- The one store goes through the whole buffer, so it covers it. -/
theorem cover1_6 (p0 : Vec F S400x64 .f32) (y : S400x64.Idx) :
    ∃ pc ∈ ([⟨r1_6, p0⟩] : List (View.Piece (Elt F) S400x64 .f32)), y ∈ pc.1.set :=
  ⟨_, List.mem_singleton_self _, View.mem_set_unit_zero Cert.Lib.zeros2 inb_S400x64_S400x64_0_0 y⟩

/-! ## The body's triple -/

set_option maxHeartbeats 2000000 in
/-- The kernel body on whole staging buffers, the inputs' at read contents `x0 … x5` and the output's at anything, runs
    to the continuation holding the inputs' as they were and the output's at `out1_6` of the inputs'. -/
theorem sound_kernel1 (c : Dev nD) (E : Set ℕ) (i : grid1.Coords)
    (arg1 : Memref sig .tc .vmem S400x10000 .f32) (harg1 : arg1.IsWhole) (arg2 : Memref sig .tc .vmem S10000x128 .bf16) (harg2 : arg2.IsWhole)
    (arg3 : Memref sig .tc .vmem S400x128 .bf16) (harg3 : arg3.IsWhole) (arg4 : Memref sig .tc .vmem S128x64 .bf16) (harg4 : arg4.IsWhole)
    (arg5 : Memref sig .tc .vmem S128x64 .bf16) (harg5 : arg5.IsWhole) (arg6 : Memref sig .tc .vmem S1x64 .f32) (harg6 : arg6.IsWhole)
    (arg7 : Memref sig .tc .vmem S400x64 .f32) (harg7 : arg7.IsWhole)
    (x0 : Vec F S400x10000 .f32) (x1 : Vec F S10000x128 .bf16) (x2 : Vec F S400x128 .bf16) (x3 : Vec F S128x64 .bf16)
    (x4 : Vec F S128x64 .bf16) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__layer_body i arg1 harg1 arg2 harg2 arg3 harg3 arg4 harg4 arg5 harg5 arg6 harg6 arg7 harg7) K := by
  simp only [cc1__layer_body_eq_skeleton]; unfold cc1__layer_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of this pass on core `c`: the arrays as the region finds them; after the body at point `t` each
    input's buffer at its block and the output's at `out1_6` of the input blocks; the invariant the scoped rest and the
    generator register, untouched; nothing owed. The feature matrix is read through two windows (whole, and the tile's
    rows): each holds one half of its share; every other array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 2000000 in
/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.RunKernel.lean ====
/-
  The program's run: two row-tiled passes among host operations, from the launch to the return.

  Between two items of the program a core holds every unscoped buffer whole, at contents that follow the program: the
  launch contents, then each stretch of host operations applied, then — after a pass — the pass's result array at what
  its 25 write-backs left. A pass is entered by sorting its windows' arrays out of those buffers and left by putting
  them back. The feature matrix of a pass is read through two windows (the whole matrix, and the tile's rows): its
  buffer's share is cut in two halves at entry, one per window, and the halves are joined at exit; no other array is
  shared, and no window writes the shared one.
-/
import proofs.«133459_g36893769073013_cont_8to1_b_1682_2_alg».proof.Proof.BodyKernel
import proofs.«133459_g36893769073013_cont_8to1_b_1682_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Pass 0's arrays: seven windows on six buffers -/

section Arrays0
variable (V : (c : Dev nD) → (b : Ref sig .tc) → Buf (Elt F) ((c : Thread nD τ).loc b))

/-- The six distinct buffers behind the seven windows, one by one, each whole at `Vc`. -/
theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg0) ↦{fullShare} Vc main_arg0) ∗ (((c : Thread nD τ).loc main_v0) ↦{fullShare} Vc main_v0) ∗ (((c : Thread nD τ).loc main_v2) ↦{fullShare} Vc main_v2)
          ∗ (((c : Thread nD τ).loc main_v4) ↦{fullShare} Vc main_v4) ∗ (((c : Thread nD τ).loc main_v5) ↦{fullShare} Vc main_v5) ∗ (((c : Thread nD τ).loc main_v6) ↦{fullShare} Vc main_v6)) := by
  unfold Pipeline.arrBufs
  exact bigSep_eq_bigSepL_of_eq [main_arg0, main_v0, main_v2, main_v4, main_v5, main_v6] (by decide) (by decide) _

/-- The proof data's arrays at contents `f0 … f6`, window by window: the feature matrix's buffer appears twice, at the
    two halves of its share. -/
theorem arrays0_eq (c : Dev nD) (Fn : (w : Fin cfg0.W) → Buf (Elt F) ((cfg0.win w).arr.view.loc (c.tc : Thread nD τ)))
    (f0 : Buf (Elt F) ((c : Thread nD τ).loc main_arg0)) (f1 f2 : Buf (Elt F) ((c : Thread nD τ).loc main_v0)) (f3 : Buf (Elt F) ((c : Thread nD τ).loc main_v2))
    (f4 : Buf (Elt F) ((c : Thread nD τ).loc main_v4)) (f5 : Buf (Elt F) ((c : Thread nD τ).loc main_v5)) (f6 : Buf (Elt F) ((c : Thread nD τ).loc main_v6))
    (h0 : Fn 0 = f0) (h1 : Fn 1 = f1) (h2 : Fn 2 = f2) (h3 : Fn 3 = f3) (h4 : Fn 4 = f4) (h5 : Fn 5 = f5) (h6 : Fn 6 = f6) :
    ((dat0 V c).arrays Fn : sProp 𝕄)
      = iprop((((c : Thread nD τ).loc main_arg0) ↦{fullShare} f0) ∗ (((c : Thread nD τ).loc main_v0) ↦{fullShare.left} f1) ∗ (((c : Thread nD τ).loc main_v0) ↦{fullShare.right} f2)
          ∗ (((c : Thread nD τ).loc main_v2) ↦{fullShare} f3) ∗ (((c : Thread nD τ).loc main_v4) ↦{fullShare} f4) ∗ (((c : Thread nD τ).loc main_v5) ↦{fullShare} f5) ∗ (((c : Thread nD τ).loc main_v6) ↦{fullShare} f6)) := by
  subst h0 h1 h2 h3 h4 h5 h6
  unfold Dat.arrays
  rw [show (bigSep Finset.univ fun w : Fin cfg0.W =>
        ((cfg0.win w).arr.view.loc (c.tc : Thread nD τ) ↦[(cfg0.win w).arr.view.set]{(dat0 V c).share w} Fn w : sProp 𝕄))
      = bigSep Finset.univ fun w : Fin cfg0.W =>
        (((c.tc : Thread nD τ).loc (Pipeline.arrRef spec0 w)) ↦{(dat0 V c).share w} Fn w : sProp 𝕄)
      from bigSep_congr fun w _ => by rw [(arr_whole0 w).set_eq_univ]]
  rw [bigSep_W0]
  rfl

/-- ENTRY: a core's unscoped buffers at `V` are the pass's arrays at their entry contents — the feature matrix's
    buffer split into the two halves of its share, one per window on it — and the unscoped rest. -/
theorem entry0 (c : Dev nD) :
    (unscopedBufs c (V c) : sProp 𝕄) ⊢ iprop((dat0 V c).arrays ((dat0 V c).arrAt · 0) ∗ Pipeline.unscopedRest spec0 c (V c)) := by
  rw [Pipeline.unscopedBufs_split₀ cfgs 0 winFacts₀0.arr_unscoped c (V c)]
  show iprop(Pipeline.arrBufs spec0 c (V c) ∗ Pipeline.unscopedRest spec0 c (V c)) ⊢ _
  rw [arrBufs0_eq, arrays0_eq V c _ (V c main_arg0) (V c main_v0) (V c main_v0) (V c main_v2) (V c main_v4) (V c main_v5) (V c main_v6) rfl rfl rfl rfl rfl rfl rfl]
  iintro ⟨⟨H0, Hx, H3, H4, H5, H6⟩, Hrest⟩
  ihave Hs := (pointsTo_share (PosShare.mem_left_op_right fullShare)).1 $$ Hx
  icases Hs with ⟨Hl, Hr⟩
  isplitr [Hrest]
  · isplitl [H0]; · iexact H0
    isplitl [Hl]; · iexact Hl
    isplitl [Hr]; · iexact Hr
    isplitl [H3]; · iexact H3
    isplitl [H4]; · iexact H4
    isplitl [H5]; · iexact H5
    iexact H6
  iexact Hrest

/-- EXIT: the pass's arrays at their final contents — the inputs as entered, the result at `res` — and the unscoped
    rest are the core's unscoped buffers at `V'`, which is `V` but at the result's buffer, where it is `res`; the two
    halves of the feature matrix's share are joined again. -/
theorem exit0 (c : Dev nD) (res : Buf (Elt F) ((c : Thread nD τ).loc main_v6)) (hres : (dat0 V c).arrAt 6 cfg0.N = res)
    (V' : (b : Ref sig .tc) → Buf (Elt F) ((c : Thread nD τ).loc b)) (hV'6 : V' main_v6 = res)
    (hV' : ∀ b : Ref sig .tc, b ≠ main_v6 → V' b = V c b) :
    iprop((dat0 V c).arrays ((dat0 V c).arrAt · cfg0.N) ∗ Pipeline.unscopedRest spec0 c (V c)) ⊢ (unscopedBufs c V' : sProp 𝕄) := by
  rw [Pipeline.unscopedBufs_split₀ cfgs 0 winFacts₀0.arr_unscoped c V']
  show _ ⊢ iprop(Pipeline.arrBufs spec0 c V' ∗ Pipeline.unscopedRest spec0 c V')
  have hrest : (Pipeline.unscopedRest (Ix := Unit) (Name := ℕ) (U := UR sig nD τ) (Lvl := ℕ) spec0 c V' : sProp 𝕄)
      = Pipeline.unscopedRest spec0 c (V c) := by
    unfold Pipeline.unscopedRest
    exact bigSep_congr fun b hb => by
      rw [hV' b fun e => (Finset.mem_sdiff.mp hb).2 (e ▸ Finset.mem_image.mpr ⟨6, Finset.mem_univ _, rfl⟩)]
  rw [hrest, arrBufs0_eq, hV'6, hV' main_arg0 (by decide), hV' main_v0 (by decide), hV' main_v2 (by decide), hV' main_v4 (by decide), hV' main_v5 (by decide),
    arrays0_eq V c _ (V c main_arg0) (V c main_v0) (V c main_v0) (V c main_v2) (V c main_v4) (V c main_v5) res
      ((dat0 V c).arrAt_in 0 rfl _) ((dat0 V c).arrAt_in 1 rfl _) ((dat0 V c).arrAt_in 2 rfl _) ((dat0 V c).arrAt_in 3 rfl _)
      ((dat0 V c).arrAt_in 4 rfl _) ((dat0 V c).arrAt_in 5 rfl _) hres]
  iintro ⟨⟨H0, Hl, Hr, H3, H4, H5, H6⟩, Hrest⟩
  isplitr [Hrest]
  · isplitl [H0]; · iexact H0
    isplitl [Hl Hr]
    · iapply (pointsTo_share (PosShare.mem_left_op_right fullShare)).2
      isplitl [Hl]; · iexact Hl
      iexact Hr
    isplitl [H3]; · iexact H3
    isplitl [H4]; · iexact H4
    isplitl [H5]; · iexact H5
    iexact H6
  iexact Hrest

end Arrays0

/-! ## Pass 1's arrays: seven windows on six buffers -/

section Arrays1
variable (V : (c : Dev nD) → (b : Ref sig .tc) → Buf (Elt F) ((c : Thread nD τ).loc b))

/-- The six distinct buffers behind the seven windows, one by one, each whole at `Vc`. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_arg0) ↦{fullShare} Vc main_arg0) ∗ (((c : Thread nD τ).loc main_v6) ↦{fullShare} Vc main_v6) ∗ (((c : Thread nD τ).loc main_v8) ↦{fullShare} Vc main_v8)
          ∗ (((c : Thread nD τ).loc main_v10) ↦{fullShare} Vc main_v10) ∗ (((c : Thread nD τ).loc main_v11) ↦{fullShare} Vc main_v11) ∗ (((c : Thread nD τ).loc main_v12) ↦{fullShare} Vc main_v12)) := by
  unfold Pipeline.arrBufs
  exact bigSep_eq_bigSepL_of_eq [main_arg0, main_v6, main_v8, main_v10, main_v11, main_v12] (by decide) (by decide) _

/-- The proof data's arrays at contents `f0 … f6`, window by window: the feature matrix's buffer appears twice, at the
    two halves of its share. -/
theorem arrays1_eq (c : Dev nD) (Fn : (w : Fin cfg1.W) → Buf (Elt F) ((cfg1.win w).arr.view.loc (c.tc : Thread nD τ)))
    (f0 : Buf (Elt F) ((c : Thread nD τ).loc main_arg0)) (f1 f2 : Buf (Elt F) ((c : Thread nD τ).loc main_v6)) (f3 : Buf (Elt F) ((c : Thread nD τ).loc main_v8))
    (f4 : Buf (Elt F) ((c : Thread nD τ).loc main_v10)) (f5 : Buf (Elt F) ((c : Thread nD τ).loc main_v11)) (f6 : Buf (Elt F) ((c : Thread nD τ).loc main_v12))
    (h0 : Fn 0 = f0) (h1 : Fn 1 = f1) (h2 : Fn 2 = f2) (h3 : Fn 3 = f3) (h4 : Fn 4 = f4) (h5 : Fn 5 = f5) (h6 : Fn 6 = f6) :
    ((dat1 V c).arrays Fn : sProp 𝕄)
      = iprop((((c : Thread nD τ).loc main_arg0) ↦{fullShare} f0) ∗ (((c : Thread nD τ).loc main_v6) ↦{fullShare.left} f1) ∗ (((c : Thread nD τ).loc main_v6) ↦{fullShare.right} f2)
          ∗ (((c : Thread nD τ).loc main_v8) ↦{fullShare} f3) ∗ (((c : Thread nD τ).loc main_v10) ↦{fullShare} f4) ∗ (((c : Thread nD τ).loc main_v11) ↦{fullShare} f5) ∗ (((c : Thread nD τ).loc main_v12) ↦{fullShare} f6)) := by
  subst h0 h1 h2 h3 h4 h5 h6
  unfold Dat.arrays
  rw [show (bigSep Finset.univ fun w : Fin cfg1.W =>
        ((cfg1.win w).arr.view.loc (c.tc : Thread nD τ) ↦[(cfg1.win w).arr.view.set]{(dat1 V c).share w} Fn w : sProp 𝕄))
      = bigSep Finset.univ fun w : Fin cfg1.W =>
        (((c.tc : Thread nD τ).loc (Pipeline.arrRef spec1 w)) ↦{(dat1 V c).share w} Fn w : sProp 𝕄)
      from bigSep_congr fun w _ => by rw [(arr_whole1 w).set_eq_univ]]
  rw [bigSep_W1]
  rfl

/-- ENTRY: a core's unscoped buffers at `V` are the pass's arrays at their entry contents — the feature matrix's
    buffer split into the two halves of its share, one per window on it — and the unscoped rest. -/
theorem entry1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  show iprop(Pipeline.arrBufs spec1 c (V c) ∗ Pipeline.unscopedRest spec1 c (V c)) ⊢ _
  rw [arrBufs1_eq, arrays1_eq V c _ (V c main_arg0) (V c main_v6) (V c main_v6) (V c main_v8) (V c main_v10) (V c main_v11) (V c main_v12) rfl rfl rfl rfl rfl rfl rfl]
  iintro ⟨⟨H0, Hx, H3, H4, H5, H6⟩, Hrest⟩
  ihave Hs := (pointsTo_share (PosShare.mem_left_op_right fullShare)).1 $$ Hx
  icases Hs with ⟨Hl, Hr⟩
  isplitr [Hrest]
  · isplitl [H0]; · iexact H0
    isplitl [Hl]; · iexact Hl
    isplitl [Hr]; · iexact Hr
    isplitl [H3]; · iexact H3
    isplitl [H4]; · iexact H4
    isplitl [H5]; · iexact H5
    iexact H6
  iexact Hrest

/-- EXIT: the pass's arrays at their final contents — the inputs as entered, the result at `res` — and the unscoped
    rest are the core's unscoped buffers at `V'`, which is `V` but at the result's buffer, where it is `res`; the two
    halves of the feature matrix's share are joined again. -/
theorem exit1 (c : Dev nD) (res : Buf (Elt F) ((c : Thread nD τ).loc main_v12)) (hres : (dat1 V c).arrAt 6 cfg1.N = res)
    (V' : (b : Ref sig .tc) → Buf (Elt F) ((c : Thread nD τ).loc b)) (hV'6 : V' main_v12 = res)
    (hV' : ∀ b : Ref sig .tc, b ≠ main_v12 → V' b = V c b) :
    iprop((dat1 V c).arrays ((dat1 V c).arrAt · cfg1.N) ∗ Pipeline.unscopedRest spec1 c (V c)) ⊢ (unscopedBufs c V' : sProp 𝕄) := by
  rw [Pipeline.unscopedBufs_split₀ cfgs 1 winFacts₀1.arr_unscoped c V']
  show _ ⊢ iprop(Pipeline.arrBufs spec1 c V' ∗ Pipeline.unscopedRest spec1 c V')
  have hrest : (Pipeline.unscopedRest (Ix := Unit) (Name := ℕ) (U := UR sig nD τ) (Lvl := ℕ) spec1 c V' : sProp 𝕄)
      = Pipeline.unscopedRest spec1 c (V c) := by
    unfold Pipeline.unscopedRest
    exact bigSep_congr fun b hb => by
      rw [hV' b fun e => (Finset.mem_sdiff.mp hb).2 (e ▸ Finset.mem_image.mpr ⟨6, Finset.mem_univ _, rfl⟩)]
  rw [hrest, arrBufs1_eq, hV'6, hV' main_arg0 (by decide), hV' main_v6 (by decide), hV' main_v8 (by decide), hV' main_v10 (by decide), hV' main_v11 (by decide),
    arrays1_eq V c _ (V c main_arg0) (V c main_v6) (V c main_v6) (V c main_v8) (V c main_v10) (V c main_v11) res
      ((dat1 V c).arrAt_in 0 rfl _) ((dat1 V c).arrAt_in 1 rfl _) ((dat1 V c).arrAt_in 2 rfl _) ((dat1 V c).arrAt_in 3 rfl _)
      ((dat1 V c).arrAt_in 4 rfl _) ((dat1 V c).arrAt_in 5 rfl _) hres]
  iintro ⟨⟨H0, Hl, Hr, H3, H4, H5, H6⟩, Hrest⟩
  isplitr [Hrest]
  · isplitl [H0]; · iexact H0
    isplitl [Hl Hr]
    · iapply (pointsTo_share (PosShare.mem_left_op_right fullShare)).2
      isplitl [Hl]; · iexact Hl
      iexact Hr
    isplitl [H3]; · iexact H3
    isplitl [H4]; · iexact H4
    isplitl [H5]; · iexact H5
    iexact H6
  iexact Hrest

end Arrays1

/-! ## The buffer contents between items, and the proof data at each pass's entry -/

section Run
variable (m : (ℓ : Loc nD τ sig) → Buf (Elt F) ℓ)

/-- What pass 0 finds in core `c`'s buffers: the launch contents after the first stretch of host operations. -/
abbrev E1 : (c : Dev nD) → (b : Ref sig .tc) → Buf (Elt F) ((c : Thread nD τ).loc b) := fun c b => Gen.V1 m c b
/-- The hidden features' array as pass 0 leaves it: its entry contents overwritten by the 25 tiles' write-backs. -/
def hid (c : Dev nD) : Buf (Elt F) ((c : Thread nD τ).loc main_v6) := (dat0 (E1 m) c).arrAt 6 cfg0.N
/-- What the passes leave, as far as pass 0: the hidden features' array at `hid`. -/
def outs0 : Gen.Outs (F := F) := fun _ r c => Function.update (Gen.V1 m c) main_v6 (hid m c) r
/-- What pass 1 finds: the buffers after pass 0 and the second stretch of host operations. -/
abbrev E3 : (c : Dev nD) → (b : Ref sig .tc) → Buf (Elt F) ((c : Thread nD τ).loc b) := fun c b => Gen.V3 m (outs0 m) c b
/-- The result array as pass 1 leaves it. -/
def res (c : Dev nD) : Buf (Elt F) ((c : Thread nD τ).loc main_v12) := (dat1 (E3 m) c).arrAt 6 cfg1.N
/-- What the passes leave: after pass 1 the result array at `res`; before that as `outs0`. -/
def outs : Gen.Outs (F := F) := fun J r c =>
  if J = 4 then Function.update (Gen.V3 m (outs0 m) c) main_v12 (res m c) r else outs0 m J r c

theorem outs_2 (c : Dev nD) : outs m 2 main_v6 c = hid m c := by
  unfold outs outs0; rw [if_neg (by decide)]; exact Function.update_self ..
theorem outs_4 (c : Dev nD) : outs m 4 main_v12 c = res m c := by
  unfold outs; rw [if_pos rfl]; exact Function.update_self ..
/-- Pass 1 is entered from the same contents whichever of the two families names what pass 0 left. -/
theorem V3_outs (c : Dev nD) : Gen.V3 m (outs m) c = Gen.V3 m (outs0 m) c := by
  unfold Gen.V3 Gen.V2
  rw [outs_2, show outs0 m 2 main_v6 c = hid m c from Function.update_self ..]

/-- Every pass's proof data, each at its entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core owing nothing. -/
def Rr (c : Dev nD) : sProp 𝕄 := iprop((∃ r, prngReg c r) ∗ ∃ W, owes (c : Thread nD τ) (0 : CellTallies nD τ sig Unit) W)

-- unifying a library lemma stated over the pinned configuration with the printed one unfolds plain definitions in a metavariable's type
set_option backward.isDefEq.respectTransparency.types false in
/-- PASS 0 as a segment of the program: entered from every unscoped buffer at the contents the item before it left,
    left with the result array at what the write-backs made of it and every other buffer as entered. Its arrays are sorted
    out of the unscoped buffers at entry and put back at exit; the generator register goes into the pass's invariant
    and comes back; nothing is owed; the kernel has no semaphore of its own. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ Rr c)
  post c := iprop(StableHlo.held (c : Thread nD τ) (Pipeline.ucRefs τ sig) (Gen.V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    unfold Rr
    rw [Pipeline.ownSems0_none]
    have hsplit := entry0 (E1 m) c
    rw [Pipeline.unscopedBufs_held c (Gen.V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    unfold Rr
    have hjoin := exit0 (E1 m) c (hid m c) rfl (fun b => (Gen.V2 m (outs m) c) b) (by show Function.update (Gen.V1 m c) main_v6 (outs m 2 main_v6 c) main_v6 = hid m c; rw [outs_2]; exact Function.update_self ..) (fun b hb => Gen.V2_of m (outs m) c b (by simpa using hb))
    rw [Pipeline.unscopedBufs_held c (Gen.V2 m (outs m) c)] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- unifying a library lemma stated over the pinned configuration with the printed one unfolds plain definitions in a metavariable's type
set_option backward.isDefEq.respectTransparency.types false in
/-- PASS 1 as a segment of the program: entered from every unscoped buffer at the contents the item before it left,
    left with the result array at what the write-backs made of it and every other buffer as entered. Its arrays are sorted
    out of the unscoped buffers at entry and put back at exit; the generator register goes into the pass's invariant
    and comes back; nothing is owed; the kernel has no semaphore of its own. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (Gen.V3 m (outs m) c) ∗ Rr c)
  post c := iprop(StableHlo.held (c : Thread nD τ) (Pipeline.ucRefs τ sig) (Gen.V4 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    unfold Rr
    rw [Pipeline.ownSems0_none]
    rw [V3_outs m c]
    have hsplit := entry1 (E3 m) c
    rw [Pipeline.unscopedBufs_held c (Gen.V3 m (outs0 m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    unfold Rr
    have hjoin := exit1 (E3 m) c (res m c) rfl (fun b => (Gen.V4 m (outs m) c) b) (by show Function.update (Gen.V3 m (outs m) c) main_v12 (outs m 4 main_v12 c) main_v12 = res m c; rw [outs_4]; exact Function.update_self ..) (fun b hb => (Gen.V4_of m (outs m) c b (by simpa using hb)).trans (congrFun (V3_outs m c) b))
    rw [Pipeline.unscopedBufs_held c (Gen.V4 m (outs m) c)] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The frame and the run -/

/-- The launch's ghost element, as the pipeline library deals it. -/
abbrev u₀ : UR sig nD τ := initOf (Pipeline.cells cfgs cellOf_inj) (Pipeline.launchToks cfgs cellOf_inj)

theorem hu₀ : (ownU (u₀) : sProp 𝕄) ⊢ |={Set.univ}=> iprop(BI.own ((emb₁ : Emb _ 𝕄) u₀) ∗ bigSep Finset.univ fun _ : Dev nD => (BI.emp : sProp 𝕄)) := by
  iintro Hu; imodintro
  isplitl [Hu]
  · iapply (show (ownU u₀ : sProp 𝕄) ⊢ BI.own ((emb₁ : Emb _ 𝕄) u₀) from .rfl)
    iexact Hu
  iapply (show (BI.emp : sProp 𝕄) ⊢ bigSep Finset.univ (fun _ : Dev nD => (BI.emp : sProp 𝕄)) from by rw [BI.bigSep_emp_const])
  iempintro

/-- At the launch every core holds its generator register and owes nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => Rr (F := F) c) : sProp 𝕄) := by
  refine Pipeline.initEach L lv fun c => ?_
  unfold Rr
  iintro ⟨⟨-, HO, -, Hp, -⟩, -⟩
  imodintro
  isplitl [Hp]; · iexists _; iexact Hp
  iexists ∅; iexact HO

set_option backward.isDefEq.respectTransparency.types false in
/-- THE FRAME, at any float instance: from any memory with zero counters every weakly fair execution of the program
    terminates, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m (emb₁ : Emb _ 𝕄) () 𝒱₀ L lv (fun _ _ => rfl) ρ (outs m) (pdats m) 0 (fun _ => (BI.emp : sProp 𝕄)) u₀ hu₀
    (fun _ c => Rr c) (hE0 ρ) (fun c => by show Rr c ⊢ _; unfold Rr; iintro ⟨-, HO⟩; iexact HO)
    (reg0 m) (fun _ => .rfl) (fun _ => .rfl) (reg1 m) (fun _ => .rfl) (fun _ => .rfl)

set_option backward.isDefEq.respectTransparency.types false in
/-- THE RUN: the same executions also end with the result array at what pass 1's write-backs left (`res`): the last
    thread state holds every unscoped buffer at the last valuation, which at the result's buffer is `res`. -/
theorem run (ρ : Dev nD → PrngReg) : θ_run defs (onTc (τ := τ) (main (F := F))) ⟨m, fun _ => 0, ρ⟩ (fun r => ∀ c : Dev nD,
      r.2.mem ((c.tc : Thread nD τ).loc main_v12) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) Gen.adm (pdats m) () cellOf_inj (emb₁ : Emb _ 𝕄) defs₀ 𝒱₀ L lv m ρ main
    (Gen.segs m (outs m) 𝒱₀ L lv (fun _ c => Rr c) () (pdats m) (reg0 m) (reg1 m))
    (fun c Q => by
      rewrite [main_chain c, Pipeline.Seg.run_eq_chain,
        show (Gen.segs m (outs m) 𝒱₀ L lv (fun _ c => Rr c) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide) 0 (fun _ _ => rfl)
    (fun _ => (BI.emp : sProp 𝕄)) u₀ hu₀
    (T₀ := fun c => iprop(StableHlo.held (c : Thread nD τ) (Pipeline.ucRefs τ sig) (Gen.V0 m c) ∗ Rr c))
    (Tₙ := fun c => StableHlo.held (c : Thread nD τ) (Pipeline.ucRefs τ sig) (Gen.V4 m (outs m) c))
    (hch := fun c => ⟨.rfl, .rfl, .rfl, .rfl, (show (reg1 m).post c ⊢ _ from .rfl).trans (sep_mono .rfl (by show Rr c ⊢ _; unfold Rr; iintro ⟨-, HO⟩; iexact HO))⟩)
    (hinit := ?_) (QY := fun c s => s.mem ((c.tc : Thread nD τ).loc main_v12) = res m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h => h)
  · -- the launch: the unscoped buffers are held at the launch contents; the rest makes the riders on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (Gen.V4 m (outs m) c) s') $$ [Hh HSI]
    · isplitl [Hh] <;> iassumption
    icases Hr with ⟨%h, HSI⟩
    imodintro
    isplitr
    · ipureintro
      exact ⟨(h (Proc.devRef .tc main_v12) (Finset.mem_filter.mpr ⟨StableHlo.devRef_mem_tcRefs main_v12, by decide⟩)).trans
          ((show Gen.V4 m (outs m) c main_v12 = outs m 4 main_v12 c from Function.update_self ..).trans (outs_4 m c)),
        (h (Proc.devRef .tc main_arg0) (Finset.mem_filter.mpr ⟨StableHlo.devRef_mem_tcRefs main_arg0, by decide⟩)).trans (Gen.V4_main_arg0 m (outs m) c),
        (h (Proc.devRef .tc main_arg1) (Finset.mem_filter.mpr ⟨StableHlo.devRef_mem_tcRefs main_arg1, by decide⟩)).trans (Gen.V4_main_arg1 m (outs m) c),
        (h (Proc.devRef .tc main_arg2) (Finset.mem_filter.mpr ⟨StableHlo.devRef_mem_tcRefs main_arg2, by decide⟩)).trans (Gen.V4_main_arg2 m (outs m) c),
        (h (Proc.devRef .tc main_arg3) (Finset.mem_filter.mpr ⟨StableHlo.devRef_mem_tcRefs main_arg3, by decide⟩)).trans (Gen.V4_main_arg3 m (outs m) c),
        (h (Proc.devRef .tc main_arg4) (Finset.mem_filter.mpr ⟨StableHlo.devRef_mem_tcRefs main_arg4, by decide⟩)).trans (Gen.V4_main_arg4 m (outs m) c),
        (h (Proc.devRef .tc main_arg5) (Finset.mem_filter.mpr ⟨StableHlo.devRef_mem_tcRefs main_arg5, by decide⟩)).trans (Gen.V4_main_arg5 m (outs m) c)⟩
    · iexact HSI

end Run

end Cert.Kernel.Hand

end
-- ==== Proof.BodyKernelIdeal.lean ====
/-
  The two row-tiled passes of the program, each at the buffer contents its entry finds.

  A pass walks 25 tiles of 400 rows. At tile t its body is handed, in staging buffers, rows 400 t … 400 t + 399 of the
  dense 10000 by 10000 matrix, the whole 10000 by 128 feature matrix, rows 400 t … 400 t + 399 of the feature matrix
  again (through a second window on the same array), the two 128-row halves of the layer's weight matrix and the bias
  row; it loads all six, computes the layer on them and stores the 400 result rows, which are written back to rows
  400 t … 400 t + 399 of the result. Stated here, for any float instance: what a staging buffer holds when the body
  runs (an input's block, whether or not it was fetched at that tile), what the body leaves (the inputs as found, the
  output at the layer's arithmetic on the six blocks), and that the body, run from the one, reaches the other.
-/
import proofs.«133459_g36893769073013_cont_8to1_b_1682_2_alg».proof.Proof.Gen.KernelIdeal.Launch
import proofs.«133459_g36893769073013_cont_8to1_b_1682_2_alg».proof.Proof.Gen.KernelIdeal.Skeleton
import proofs.«133459_g36893769073013_cont_8to1_b_1682_2_alg».proof.Proof.Gen.KernelIdeal.Points
import proofs.«133459_g36893769073013_cont_8to1_b_1682_2_alg».proof.Proof.LibWholeAccess
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: the first layer's row-tiled pass, at the buffer contents `V` its entry finds -/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: unfetched, the block index has
    not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: unfetched, the block index has
    not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: unfetched, the block index has
    not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: unfetched, the block index has
    not moved, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not: unfetched, the block index has
    not moved, and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not: unfetched, the block index has
    not moved, and the body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole of a staging buffer -/

abbrev r0_0 : Rect S400x10000 := Rect.unit (s := S400x10000) ![0, 0] S400x10000.size inb_S400x10000_S400x10000_0_0
abbrev r0_1 : Rect S10000x128 := Rect.unit (s := S10000x128) ![0, 0] S10000x128.size inb_S10000x128_S10000x128_0_0
abbrev r0_2 : Rect S400x128 := Rect.unit (s := S400x128) ![0, 0] S400x128.size inb_S400x128_S400x128_0_0
abbrev r0_3 : Rect S128x128 := Rect.unit (s := S128x128) ![0, 0] S128x128.size inb_S128x128_S128x128_0_0
abbrev r0_5 : Rect S1x128 := Rect.unit (s := S1x128) ![0, 0] S1x128.size inb_S1x128_S1x128_0_0
abbrev r0_6 : Rect S400x128 := Rect.unit (s := S400x128) ![0, 0] S400x128.size inb_S400x128_S400x128_0_0

/-- What the body leaves in the output window's staging buffer, from the six input blocks (in window order: the
    row tile of the dense matrix, the whole feature matrix, the feature rows of the tile, the two halves of the
    weight matrix, the bias row): its one store, of the layer's arithmetic on what the loads read. -/
def out0_6 (x0 : Vec F S400x10000 .f32) (x1 : Vec F S10000x128 .bf16) (x2 : Vec F S400x128 .bf16) (x3 : Vec F S128x128 .bf16)
    (x4 : Vec F S128x128 .bf16) (x5 : Vec F S1x128 .f32) : Vec F S400x128 .bf16 :=
  View.canon [⟨r0_6, k0_pay1 (View.ld x0 r0_0) (View.ld x1 r0_1) (View.ld x3 r0_3) (View.ld x2 r0_2) (View.ld x4 r0_3) (View.ld x5 r0_5)⟩]

/-- The one store goes through the whole buffer, so it covers it. -/
theorem cover0_6 (p0 : Vec F S400x128 .bf16) (y : S400x128.Idx) :
    ∃ pc ∈ ([⟨r0_6, p0⟩] : List (View.Piece (Elt F) S400x128 .bf16)), y ∈ pc.1.set :=
  ⟨_, List.mem_singleton_self _, View.mem_set_unit_zero Cert.Lib.zeros2 inb_S400x128_S400x128_0_0 y⟩

/-! ## The body's triple -/

set_option maxHeartbeats 2000000 in
/-- The kernel body on whole staging buffers, the inputs' at read contents `x0 … x5` and the output's at anything, runs
    to the continuation holding the inputs' as they were and the output's at `out0_6` of the inputs'. -/
theorem sound_kernel0 (c : Dev nD) (E : Set ℕ) (i : grid0.Coords)
    (arg1 : Memref sig .tc .vmem S400x10000 .f32) (harg1 : arg1.IsWhole) (arg2 : Memref sig .tc .vmem S10000x128 .bf16) (harg2 : arg2.IsWhole)
    (arg3 : Memref sig .tc .vmem S400x128 .bf16) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S400x128 .bf16) (harg7 : arg7.IsWhole)
    (x0 : Vec F S400x10000 .f32) (x1 : Vec F S10000x128 .bf16) (x2 : Vec F S400x128 .bf16) (x3 : Vec F S128x128 .bf16)
    (x4 : Vec F S128x128 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__layer_body i arg1 harg1 arg2 harg2 arg3 harg3 arg4 harg4 arg5 harg5 arg6 harg6 arg7 harg7) K := by
  simp only [cc0__layer_body_eq_skeleton]; unfold cc0__layer_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of this pass on core `c`: the arrays as the region finds them; after the body at point `t` each
    input's buffer at its block and the output's at `out0_6` of the input blocks; the invariant the scoped rest and the
    generator register, untouched; nothing owed. The feature matrix is read through two windows (whole, and the tile's
    rows): each holds one half of its share; every other array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

/-! # Region 1: the second layer's row-tiled pass, at the buffer contents `V` its entry finds -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: unfetched, the block index has
    not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: unfetched, the block index has
    not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: unfetched, the block index has
    not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not: unfetched, the block index has
    not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not: unfetched, the block index has
    not moved, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not: unfetched, the block index has
    not moved, and the body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole of a staging buffer -/

abbrev r1_0 : Rect S400x10000 := Rect.unit (s := S400x10000) ![0, 0] S400x10000.size inb_S400x10000_S400x10000_0_0
abbrev r1_1 : Rect S10000x128 := Rect.unit (s := S10000x128) ![0, 0] S10000x128.size inb_S10000x128_S10000x128_0_0
abbrev r1_2 : Rect S400x128 := Rect.unit (s := S400x128) ![0, 0] S400x128.size inb_S400x128_S400x128_0_0
abbrev r1_3 : Rect S128x64 := Rect.unit (s := S128x64) ![0, 0] S128x64.size inb_S128x64_S128x64_0_0
abbrev r1_5 : Rect S1x64 := Rect.unit (s := S1x64) ![0, 0] S1x64.size inb_S1x64_S1x64_0_0
abbrev r1_6 : Rect S400x64 := Rect.unit (s := S400x64) ![0, 0] S400x64.size inb_S400x64_S400x64_0_0

/-- What the body leaves in the output window's staging buffer, from the six input blocks (in window order: the
    row tile of the dense matrix, the whole feature matrix, the feature rows of the tile, the two halves of the
    weight matrix, the bias row): its one store, of the layer's arithmetic on what the loads read. -/
def out1_6 (x0 : Vec F S400x10000 .f32) (x1 : Vec F S10000x128 .bf16) (x2 : Vec F S400x128 .bf16) (x3 : Vec F S128x64 .bf16)
    (x4 : Vec F S128x64 .bf16) (x5 : Vec F S1x64 .f32) : Vec F S400x64 .f32 :=
  View.canon [⟨r1_6, k1_pay1 (View.ld x0 r1_0) (View.ld x1 r1_1) (View.ld x3 r1_3) (View.ld x2 r1_2) (View.ld x4 r1_3) (View.ld x5 r1_5)⟩]

/-- The one store goes through the whole buffer, so it covers it. -/
theorem cover1_6 (p0 : Vec F S400x64 .f32) (y : S400x64.Idx) :
    ∃ pc ∈ ([⟨r1_6, p0⟩] : List (View.Piece (Elt F) S400x64 .f32)), y ∈ pc.1.set :=
  ⟨_, List.mem_singleton_self _, View.mem_set_unit_zero Cert.Lib.zeros2 inb_S400x64_S400x64_0_0 y⟩

/-! ## The body's triple -/

set_option maxHeartbeats 2000000 in
/-- The kernel body on whole staging buffers, the inputs' at read contents `x0 … x5` and the output's at anything, runs
    to the continuation holding the inputs' as they were and the output's at `out1_6` of the inputs'. -/
theorem sound_kernel1 (c : Dev nD) (E : Set ℕ) (i : grid1.Coords)
    (arg1 : Memref sig .tc .vmem S400x10000 .f32) (harg1 : arg1.IsWhole) (arg2 : Memref sig .tc .vmem S10000x128 .bf16) (harg2 : arg2.IsWhole)
    (arg3 : Memref sig .tc .vmem S400x128 .bf16) (harg3 : arg3.IsWhole) (arg4 : Memref sig .tc .vmem S128x64 .bf16) (harg4 : arg4.IsWhole)
    (arg5 : Memref sig .tc .vmem S128x64 .bf16) (harg5 : arg5.IsWhole) (arg6 : Memref sig .tc .vmem S1x64 .f32) (harg6 : arg6.IsWhole)
    (arg7 : Memref sig .tc .vmem S400x64 .f32) (harg7 : arg7.IsWhole)
    (x0 : Vec F S400x10000 .f32) (x1 : Vec F S10000x128 .bf16) (x2 : Vec F S400x128 .bf16) (x3 : Vec F S128x64 .bf16)
    (x4 : Vec F S128x64 .bf16) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__layer_body i arg1 harg1 arg2 harg2 arg3 harg3 arg4 harg4 arg5 harg5 arg6 harg6 arg7 harg7) K := by
  simp only [cc1__layer_body_eq_skeleton]; unfold cc1__layer_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of this pass on core `c`: the arrays as the region finds them; after the body at point `t` each
    input's buffer at its block and the output's at `out1_6` of the input blocks; the invariant the scoped rest and the
    generator register, untouched; nothing owed. The feature matrix is read through two windows (whole, and the tile's
    rows): each holds one half of its share; every other array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 2000000 in
/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.RunKernelIdeal.lean ====
/-
  The program's run: two row-tiled passes among host operations, from the launch to the return.

  Between two items of the program a core holds every unscoped buffer whole, at contents that follow the program: the
  launch contents, then each stretch of host operations applied, then — after a pass — the pass's result array at what
  its 25 write-backs left. A pass is entered by sorting its windows' arrays out of those buffers and left by putting
  them back. The feature matrix of a pass is read through two windows (the whole matrix, and the tile's rows): its
  buffer's share is cut in two halves at entry, one per window, and the halves are joined at exit; no other array is
  shared, and no window writes the shared one.
-/
import proofs.«133459_g36893769073013_cont_8to1_b_1682_2_alg».proof.Proof.BodyKernelIdeal
import proofs.«133459_g36893769073013_cont_8to1_b_1682_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Pass 0's arrays: seven windows on six buffers -/

section Arrays0
variable (V : (c : Dev nD) → (b : Ref sig .tc) → Buf (Elt F) ((c : Thread nD τ).loc b))

/-- The six distinct buffers behind the seven windows, one by one, each whole at `Vc`. -/
theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg0) ↦{fullShare} Vc main_arg0) ∗ (((c : Thread nD τ).loc main_v0) ↦{fullShare} Vc main_v0) ∗ (((c : Thread nD τ).loc main_v2) ↦{fullShare} Vc main_v2)
          ∗ (((c : Thread nD τ).loc main_v4) ↦{fullShare} Vc main_v4) ∗ (((c : Thread nD τ).loc main_v5) ↦{fullShare} Vc main_v5) ∗ (((c : Thread nD τ).loc main_v6) ↦{fullShare} Vc main_v6)) := by
  unfold Pipeline.arrBufs
  exact bigSep_eq_bigSepL_of_eq [main_arg0, main_v0, main_v2, main_v4, main_v5, main_v6] (by decide) (by decide) _

/-- The proof data's arrays at contents `f0 … f6`, window by window: the feature matrix's buffer appears twice, at the
    two halves of its share. -/
theorem arrays0_eq (c : Dev nD) (Fn : (w : Fin cfg0.W) → Buf (Elt F) ((cfg0.win w).arr.view.loc (c.tc : Thread nD τ)))
    (f0 : Buf (Elt F) ((c : Thread nD τ).loc main_arg0)) (f1 f2 : Buf (Elt F) ((c : Thread nD τ).loc main_v0)) (f3 : Buf (Elt F) ((c : Thread nD τ).loc main_v2))
    (f4 : Buf (Elt F) ((c : Thread nD τ).loc main_v4)) (f5 : Buf (Elt F) ((c : Thread nD τ).loc main_v5)) (f6 : Buf (Elt F) ((c : Thread nD τ).loc main_v6))
    (h0 : Fn 0 = f0) (h1 : Fn 1 = f1) (h2 : Fn 2 = f2) (h3 : Fn 3 = f3) (h4 : Fn 4 = f4) (h5 : Fn 5 = f5) (h6 : Fn 6 = f6) :
    ((dat0 V c).arrays Fn : sProp 𝕄)
      = iprop((((c : Thread nD τ).loc main_arg0) ↦{fullShare} f0) ∗ (((c : Thread nD τ).loc main_v0) ↦{fullShare.left} f1) ∗ (((c : Thread nD τ).loc main_v0) ↦{fullShare.right} f2)
          ∗ (((c : Thread nD τ).loc main_v2) ↦{fullShare} f3) ∗ (((c : Thread nD τ).loc main_v4) ↦{fullShare} f4) ∗ (((c : Thread nD τ).loc main_v5) ↦{fullShare} f5) ∗ (((c : Thread nD τ).loc main_v6) ↦{fullShare} f6)) := by
  subst h0 h1 h2 h3 h4 h5 h6
  unfold Dat.arrays
  rw [show (bigSep Finset.univ fun w : Fin cfg0.W =>
        ((cfg0.win w).arr.view.loc (c.tc : Thread nD τ) ↦[(cfg0.win w).arr.view.set]{(dat0 V c).share w} Fn w : sProp 𝕄))
      = bigSep Finset.univ fun w : Fin cfg0.W =>
        (((c.tc : Thread nD τ).loc (Pipeline.arrRef spec0 w)) ↦{(dat0 V c).share w} Fn w : sProp 𝕄)
      from bigSep_congr fun w _ => by rw [(arr_whole0 w).set_eq_univ]]
  rw [bigSep_W0]
  rfl

/-- ENTRY: a core's unscoped buffers at `V` are the pass's arrays at their entry contents — the feature matrix's
    buffer split into the two halves of its share, one per window on it — and the unscoped rest. -/
theorem entry0 (c : Dev nD) :
    (unscopedBufs c (V c) : sProp 𝕄) ⊢ iprop((dat0 V c).arrays ((dat0 V c).arrAt · 0) ∗ Pipeline.unscopedRest spec0 c (V c)) := by
  rw [Pipeline.unscopedBufs_split₀ cfgs 0 winFacts₀0.arr_unscoped c (V c)]
  show iprop(Pipeline.arrBufs spec0 c (V c) ∗ Pipeline.unscopedRest spec0 c (V c)) ⊢ _
  rw [arrBufs0_eq, arrays0_eq V c _ (V c main_arg0) (V c main_v0) (V c main_v0) (V c main_v2) (V c main_v4) (V c main_v5) (V c main_v6) rfl rfl rfl rfl rfl rfl rfl]
  iintro ⟨⟨H0, Hx, H3, H4, H5, H6⟩, Hrest⟩
  ihave Hs := (pointsTo_share (PosShare.mem_left_op_right fullShare)).1 $$ Hx
  icases Hs with ⟨Hl, Hr⟩
  isplitr [Hrest]
  · isplitl [H0]; · iexact H0
    isplitl [Hl]; · iexact Hl
    isplitl [Hr]; · iexact Hr
    isplitl [H3]; · iexact H3
    isplitl [H4]; · iexact H4
    isplitl [H5]; · iexact H5
    iexact H6
  iexact Hrest

/-- EXIT: the pass's arrays at their final contents — the inputs as entered, the result at `res` — and the unscoped
    rest are the core's unscoped buffers at `V'`, which is `V` but at the result's buffer, where it is `res`; the two
    halves of the feature matrix's share are joined again. -/
theorem exit0 (c : Dev nD) (res : Buf (Elt F) ((c : Thread nD τ).loc main_v6)) (hres : (dat0 V c).arrAt 6 cfg0.N = res)
    (V' : (b : Ref sig .tc) → Buf (Elt F) ((c : Thread nD τ).loc b)) (hV'6 : V' main_v6 = res)
    (hV' : ∀ b : Ref sig .tc, b ≠ main_v6 → V' b = V c b) :
    iprop((dat0 V c).arrays ((dat0 V c).arrAt · cfg0.N) ∗ Pipeline.unscopedRest spec0 c (V c)) ⊢ (unscopedBufs c V' : sProp 𝕄) := by
  rw [Pipeline.unscopedBufs_split₀ cfgs 0 winFacts₀0.arr_unscoped c V']
  show _ ⊢ iprop(Pipeline.arrBufs spec0 c V' ∗ Pipeline.unscopedRest spec0 c V')
  have hrest : (Pipeline.unscopedRest (Ix := Unit) (Name := ℕ) (U := UR sig nD τ) (Lvl := ℕ) spec0 c V' : sProp 𝕄)
      = Pipeline.unscopedRest spec0 c (V c) := by
    unfold Pipeline.unscopedRest
    exact bigSep_congr fun b hb => by
      rw [hV' b fun e => (Finset.mem_sdiff.mp hb).2 (e ▸ Finset.mem_image.mpr ⟨6, Finset.mem_univ _, rfl⟩)]
  rw [hrest, arrBufs0_eq, hV'6, hV' main_arg0 (by decide), hV' main_v0 (by decide), hV' main_v2 (by decide), hV' main_v4 (by decide), hV' main_v5 (by decide),
    arrays0_eq V c _ (V c main_arg0) (V c main_v0) (V c main_v0) (V c main_v2) (V c main_v4) (V c main_v5) res
      ((dat0 V c).arrAt_in 0 rfl _) ((dat0 V c).arrAt_in 1 rfl _) ((dat0 V c).arrAt_in 2 rfl _) ((dat0 V c).arrAt_in 3 rfl _)
      ((dat0 V c).arrAt_in 4 rfl _) ((dat0 V c).arrAt_in 5 rfl _) hres]
  iintro ⟨⟨H0, Hl, Hr, H3, H4, H5, H6⟩, Hrest⟩
  isplitr [Hrest]
  · isplitl [H0]; · iexact H0
    isplitl [Hl Hr]
    · iapply (pointsTo_share (PosShare.mem_left_op_right fullShare)).2
      isplitl [Hl]; · iexact Hl
      iexact Hr
    isplitl [H3]; · iexact H3
    isplitl [H4]; · iexact H4
    isplitl [H5]; · iexact H5
    iexact H6
  iexact Hrest

end Arrays0

/-! ## Pass 1's arrays: seven windows on six buffers -/

section Arrays1
variable (V : (c : Dev nD) → (b : Ref sig .tc) → Buf (Elt F) ((c : Thread nD τ).loc b))

/-- The six distinct buffers behind the seven windows, one by one, each whole at `Vc`. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_arg0) ↦{fullShare} Vc main_arg0) ∗ (((c : Thread nD τ).loc main_v6) ↦{fullShare} Vc main_v6) ∗ (((c : Thread nD τ).loc main_v8) ↦{fullShare} Vc main_v8)
          ∗ (((c : Thread nD τ).loc main_v10) ↦{fullShare} Vc main_v10) ∗ (((c : Thread nD τ).loc main_v11) ↦{fullShare} Vc main_v11) ∗ (((c : Thread nD τ).loc main_v12) ↦{fullShare} Vc main_v12)) := by
  unfold Pipeline.arrBufs
  exact bigSep_eq_bigSepL_of_eq [main_arg0, main_v6, main_v8, main_v10, main_v11, main_v12] (by decide) (by decide) _

/-- The proof data's arrays at contents `f0 … f6`, window by window: the feature matrix's buffer appears twice, at the
    two halves of its share. -/
theorem arrays1_eq (c : Dev nD) (Fn : (w : Fin cfg1.W) → Buf (Elt F) ((cfg1.win w).arr.view.loc (c.tc : Thread nD τ)))
    (f0 : Buf (Elt F) ((c : Thread nD τ).loc main_arg0)) (f1 f2 : Buf (Elt F) ((c : Thread nD τ).loc main_v6)) (f3 : Buf (Elt F) ((c : Thread nD τ).loc main_v8))
    (f4 : Buf (Elt F) ((c : Thread nD τ).loc main_v10)) (f5 : Buf (Elt F) ((c : Thread nD τ).loc main_v11)) (f6 : Buf (Elt F) ((c : Thread nD τ).loc main_v12))
    (h0 : Fn 0 = f0) (h1 : Fn 1 = f1) (h2 : Fn 2 = f2) (h3 : Fn 3 = f3) (h4 : Fn 4 = f4) (h5 : Fn 5 = f5) (h6 : Fn 6 = f6) :
    ((dat1 V c).arrays Fn : sProp 𝕄)
      = iprop((((c : Thread nD τ).loc main_arg0) ↦{fullShare} f0) ∗ (((c : Thread nD τ).loc main_v6) ↦{fullShare.left} f1) ∗ (((c : Thread nD τ).loc main_v6) ↦{fullShare.right} f2)
          ∗ (((c : Thread nD τ).loc main_v8) ↦{fullShare} f3) ∗ (((c : Thread nD τ).loc main_v10) ↦{fullShare} f4) ∗ (((c : Thread nD τ).loc main_v11) ↦{fullShare} f5) ∗ (((c : Thread nD τ).loc main_v12) ↦{fullShare} f6)) := by
  subst h0 h1 h2 h3 h4 h5 h6
  unfold Dat.arrays
  rw [show (bigSep Finset.univ fun w : Fin cfg1.W =>
        ((cfg1.win w).arr.view.loc (c.tc : Thread nD τ) ↦[(cfg1.win w).arr.view.set]{(dat1 V c).share w} Fn w : sProp 𝕄))
      = bigSep Finset.univ fun w : Fin cfg1.W =>
        (((c.tc : Thread nD τ).loc (Pipeline.arrRef spec1 w)) ↦{(dat1 V c).share w} Fn w : sProp 𝕄)
      from bigSep_congr fun w _ => by rw [(arr_whole1 w).set_eq_univ]]
  rw [bigSep_W1]
  rfl

/-- ENTRY: a core's unscoped buffers at `V` are the pass's arrays at their entry contents — the feature matrix's
    buffer split into the two halves of its share, one per window on it — and the unscoped rest. -/
theorem entry1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  show iprop(Pipeline.arrBufs spec1 c (V c) ∗ Pipeline.unscopedRest spec1 c (V c)) ⊢ _
  rw [arrBufs1_eq, arrays1_eq V c _ (V c main_arg0) (V c main_v6) (V c main_v6) (V c main_v8) (V c main_v10) (V c main_v11) (V c main_v12) rfl rfl rfl rfl rfl rfl rfl]
  iintro ⟨⟨H0, Hx, H3, H4, H5, H6⟩, Hrest⟩
  ihave Hs := (pointsTo_share (PosShare.mem_left_op_right fullShare)).1 $$ Hx
  icases Hs with ⟨Hl, Hr⟩
  isplitr [Hrest]
  · isplitl [H0]; · iexact H0
    isplitl [Hl]; · iexact Hl
    isplitl [Hr]; · iexact Hr
    isplitl [H3]; · iexact H3
    isplitl [H4]; · iexact H4
    isplitl [H5]; · iexact H5
    iexact H6
  iexact Hrest

/-- EXIT: the pass's arrays at their final contents — the inputs as entered, the result at `res` — and the unscoped
    rest are the core's unscoped buffers at `V'`, which is `V` but at the result's buffer, where it is `res`; the two
    halves of the feature matrix's share are joined again. -/
theorem exit1 (c : Dev nD) (res : Buf (Elt F) ((c : Thread nD τ).loc main_v12)) (hres : (dat1 V c).arrAt 6 cfg1.N = res)
    (V' : (b : Ref sig .tc) → Buf (Elt F) ((c : Thread nD τ).loc b)) (hV'6 : V' main_v12 = res)
    (hV' : ∀ b : Ref sig .tc, b ≠ main_v12 → V' b = V c b) :
    iprop((dat1 V c).arrays ((dat1 V c).arrAt · cfg1.N) ∗ Pipeline.unscopedRest spec1 c (V c)) ⊢ (unscopedBufs c V' : sProp 𝕄) := by
  rw [Pipeline.unscopedBufs_split₀ cfgs 1 winFacts₀1.arr_unscoped c V']
  show _ ⊢ iprop(Pipeline.arrBufs spec1 c V' ∗ Pipeline.unscopedRest spec1 c V')
  have hrest : (Pipeline.unscopedRest (Ix := Unit) (Name := ℕ) (U := UR sig nD τ) (Lvl := ℕ) spec1 c V' : sProp 𝕄)
      = Pipeline.unscopedRest spec1 c (V c) := by
    unfold Pipeline.unscopedRest
    exact bigSep_congr fun b hb => by
      rw [hV' b fun e => (Finset.mem_sdiff.mp hb).2 (e ▸ Finset.mem_image.mpr ⟨6, Finset.mem_univ _, rfl⟩)]
  rw [hrest, arrBufs1_eq, hV'6, hV' main_arg0 (by decide), hV' main_v6 (by decide), hV' main_v8 (by decide), hV' main_v10 (by decide), hV' main_v11 (by decide),
    arrays1_eq V c _ (V c main_arg0) (V c main_v6) (V c main_v6) (V c main_v8) (V c main_v10) (V c main_v11) res
      ((dat1 V c).arrAt_in 0 rfl _) ((dat1 V c).arrAt_in 1 rfl _) ((dat1 V c).arrAt_in 2 rfl _) ((dat1 V c).arrAt_in 3 rfl _)
      ((dat1 V c).arrAt_in 4 rfl _) ((dat1 V c).arrAt_in 5 rfl _) hres]
  iintro ⟨⟨H0, Hl, Hr, H3, H4, H5, H6⟩, Hrest⟩
  isplitr [Hrest]
  · isplitl [H0]; · iexact H0
    isplitl [Hl Hr]
    · iapply (pointsTo_share (PosShare.mem_left_op_right fullShare)).2
      isplitl [Hl]; · iexact Hl
      iexact Hr
    isplitl [H3]; · iexact H3
    isplitl [H4]; · iexact H4
    isplitl [H5]; · iexact H5
    iexact H6
  iexact Hrest

end Arrays1

/-! ## The buffer contents between items, and the proof data at each pass's entry -/

section Run
variable (m : (ℓ : Loc nD τ sig) → Buf (Elt F) ℓ)

/-- What pass 0 finds in core `c`'s buffers: the launch contents after the first stretch of host operations. -/
abbrev E1 : (c : Dev nD) → (b : Ref sig .tc) → Buf (Elt F) ((c : Thread nD τ).loc b) := fun c b => Gen.V1 m c b
/-- The hidden features' array as pass 0 leaves it: its entry contents overwritten by the 25 tiles' write-backs. -/
def hid (c : Dev nD) : Buf (Elt F) ((c : Thread nD τ).loc main_v6) := (dat0 (E1 m) c).arrAt 6 cfg0.N
/-- What the passes leave, as far as pass 0: the hidden features' array at `hid`. -/
def outs0 : Gen.Outs (F := F) := fun _ r c => Function.update (Gen.V1 m c) main_v6 (hid m c) r
/-- What pass 1 finds: the buffers after pass 0 and the second stretch of host operations. -/
abbrev E3 : (c : Dev nD) → (b : Ref sig .tc) → Buf (Elt F) ((c : Thread nD τ).loc b) := fun c b => Gen.V3 m (outs0 m) c b
/-- The result array as pass 1 leaves it. -/
def res (c : Dev nD) : Buf (Elt F) ((c : Thread nD τ).loc main_v12) := (dat1 (E3 m) c).arrAt 6 cfg1.N
/-- What the passes leave: after pass 1 the result array at `res`; before that as `outs0`. -/
def outs : Gen.Outs (F := F) := fun J r c =>
  if J = 4 then Function.update (Gen.V3 m (outs0 m) c) main_v12 (res m c) r else outs0 m J r c

theorem outs_2 (c : Dev nD) : outs m 2 main_v6 c = hid m c := by
  unfold outs outs0; rw [if_neg (by decide)]; exact Function.update_self ..
theorem outs_4 (c : Dev nD) : outs m 4 main_v12 c = res m c := by
  unfold outs; rw [if_pos rfl]; exact Function.update_self ..
/-- Pass 1 is entered from the same contents whichever of the two families names what pass 0 left. -/
theorem V3_outs (c : Dev nD) : Gen.V3 m (outs m) c = Gen.V3 m (outs0 m) c := by
  unfold Gen.V3 Gen.V2
  rw [outs_2, show outs0 m 2 main_v6 c = hid m c from Function.update_self ..]

/-- Every pass's proof data, each at its entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core owing nothing. -/
def Rr (c : Dev nD) : sProp 𝕄 := iprop((∃ r, prngReg c r) ∗ ∃ W, owes (c : Thread nD τ) (0 : CellTallies nD τ sig Unit) W)

-- unifying a library lemma stated over the pinned configuration with the printed one unfolds plain definitions in a metavariable's type
set_option backward.isDefEq.respectTransparency.types false in
/-- PASS 0 as a segment of the program: entered from every unscoped buffer at the contents the item before it left,
    left with the result array at what the write-backs made of it and every other buffer as entered. Its arrays are sorted
    out of the unscoped buffers at entry and put back at exit; the generator register goes into the pass's invariant
    and comes back; nothing is owed; the kernel has no semaphore of its own. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ Rr c)
  post c := iprop(StableHlo.held (c : Thread nD τ) (Pipeline.ucRefs τ sig) (Gen.V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    unfold Rr
    rw [Pipeline.ownSems0_none]
    have hsplit := entry0 (E1 m) c
    rw [Pipeline.unscopedBufs_held c (Gen.V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    unfold Rr
    have hjoin := exit0 (E1 m) c (hid m c) rfl (fun b => (Gen.V2 m (outs m) c) b) (by show Function.update (Gen.V1 m c) main_v6 (outs m 2 main_v6 c) main_v6 = hid m c; rw [outs_2]; exact Function.update_self ..) (fun b hb => Gen.V2_of m (outs m) c b (by simpa using hb))
    rw [Pipeline.unscopedBufs_held c (Gen.V2 m (outs m) c)] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- unifying a library lemma stated over the pinned configuration with the printed one unfolds plain definitions in a metavariable's type
set_option backward.isDefEq.respectTransparency.types false in
/-- PASS 1 as a segment of the program: entered from every unscoped buffer at the contents the item before it left,
    left with the result array at what the write-backs made of it and every other buffer as entered. Its arrays are sorted
    out of the unscoped buffers at entry and put back at exit; the generator register goes into the pass's invariant
    and comes back; nothing is owed; the kernel has no semaphore of its own. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (Gen.V3 m (outs m) c) ∗ Rr c)
  post c := iprop(StableHlo.held (c : Thread nD τ) (Pipeline.ucRefs τ sig) (Gen.V4 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    unfold Rr
    rw [Pipeline.ownSems0_none]
    rw [V3_outs m c]
    have hsplit := entry1 (E3 m) c
    rw [Pipeline.unscopedBufs_held c (Gen.V3 m (outs0 m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    unfold Rr
    have hjoin := exit1 (E3 m) c (res m c) rfl (fun b => (Gen.V4 m (outs m) c) b) (by show Function.update (Gen.V3 m (outs m) c) main_v12 (outs m 4 main_v12 c) main_v12 = res m c; rw [outs_4]; exact Function.update_self ..) (fun b hb => (Gen.V4_of m (outs m) c b (by simpa using hb)).trans (congrFun (V3_outs m c) b))
    rw [Pipeline.unscopedBufs_held c (Gen.V4 m (outs m) c)] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The frame and the run -/

/-- The launch's ghost element, as the pipeline library deals it. -/
abbrev u₀ : UR sig nD τ := initOf (Pipeline.cells cfgs cellOf_inj) (Pipeline.launchToks cfgs cellOf_inj)

theorem hu₀ : (ownU (u₀) : sProp 𝕄) ⊢ |={Set.univ}=> iprop(BI.own ((emb₁ : Emb _ 𝕄) u₀) ∗ bigSep Finset.univ fun _ : Dev nD => (BI.emp : sProp 𝕄)) := by
  iintro Hu; imodintro
  isplitl [Hu]
  · iapply (show (ownU u₀ : sProp 𝕄) ⊢ BI.own ((emb₁ : Emb _ 𝕄) u₀) from .rfl)
    iexact Hu
  iapply (show (BI.emp : sProp 𝕄) ⊢ bigSep Finset.univ (fun _ : Dev nD => (BI.emp : sProp 𝕄)) from by rw [BI.bigSep_emp_const])
  iempintro

/-- At the launch every core holds its generator register and owes nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => Rr (F := F) c) : sProp 𝕄) := by
  refine Pipeline.initEach L lv fun c => ?_
  unfold Rr
  iintro ⟨⟨-, HO, -, Hp, -⟩, -⟩
  imodintro
  isplitl [Hp]; · iexists _; iexact Hp
  iexists ∅; iexact HO

set_option backward.isDefEq.respectTransparency.types false in
/-- THE FRAME, at any float instance: from any memory with zero counters every weakly fair execution of the program
    terminates, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m (emb₁ : Emb _ 𝕄) () 𝒱₀ L lv (fun _ _ => rfl) ρ (outs m) (pdats m) 0 (fun _ => (BI.emp : sProp 𝕄)) u₀ hu₀
    (fun _ c => Rr c) (hE0 ρ) (fun c => by show Rr c ⊢ _; unfold Rr; iintro ⟨-, HO⟩; iexact HO)
    (reg0 m) (fun _ => .rfl) (fun _ => .rfl) (reg1 m) (fun _ => .rfl) (fun _ => .rfl)

set_option backward.isDefEq.respectTransparency.types false in
/-- THE RUN: the same executions also end with the result array at what pass 1's write-backs left (`res`): the last
    thread state holds every unscoped buffer at the last valuation, which at the result's buffer is `res`. -/
theorem run (ρ : Dev nD → PrngReg) : θ_run defs (onTc (τ := τ) (main (F := F))) ⟨m, fun _ => 0, ρ⟩ (fun r => ∀ c : Dev nD,
      r.2.mem ((c.tc : Thread nD τ).loc main_v12) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) Gen.adm (pdats m) () cellOf_inj (emb₁ : Emb _ 𝕄) defs₀ 𝒱₀ L lv m ρ main
    (Gen.segs m (outs m) 𝒱₀ L lv (fun _ c => Rr c) () (pdats m) (reg0 m) (reg1 m))
    (fun c Q => by
      rewrite [main_chain c, Pipeline.Seg.run_eq_chain,
        show (Gen.segs m (outs m) 𝒱₀ L lv (fun _ c => Rr c) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide) 0 (fun _ _ => rfl)
    (fun _ => (BI.emp : sProp 𝕄)) u₀ hu₀
    (T₀ := fun c => iprop(StableHlo.held (c : Thread nD τ) (Pipeline.ucRefs τ sig) (Gen.V0 m c) ∗ Rr c))
    (Tₙ := fun c => StableHlo.held (c : Thread nD τ) (Pipeline.ucRefs τ sig) (Gen.V4 m (outs m) c))
    (hch := fun c => ⟨.rfl, .rfl, .rfl, .rfl, (show (reg1 m).post c ⊢ _ from .rfl).trans (sep_mono .rfl (by show Rr c ⊢ _; unfold Rr; iintro ⟨-, HO⟩; iexact HO))⟩)
    (hinit := ?_) (QY := fun c s => s.mem ((c.tc : Thread nD τ).loc main_v12) = res m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h => h)
  · -- the launch: the unscoped buffers are held at the launch contents; the rest makes the riders on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (Gen.V4 m (outs m) c) s') $$ [Hh HSI]
    · isplitl [Hh] <;> iassumption
    icases Hr with ⟨%h, HSI⟩
    imodintro
    isplitr
    · ipureintro
      exact ⟨(h (Proc.devRef .tc main_v12) (Finset.mem_filter.mpr ⟨StableHlo.devRef_mem_tcRefs main_v12, by decide⟩)).trans
          ((show Gen.V4 m (outs m) c main_v12 = outs m 4 main_v12 c from Function.update_self ..).trans (outs_4 m c)),
        (h (Proc.devRef .tc main_arg0) (Finset.mem_filter.mpr ⟨StableHlo.devRef_mem_tcRefs main_arg0, by decide⟩)).trans (Gen.V4_main_arg0 m (outs m) c),
        (h (Proc.devRef .tc main_arg1) (Finset.mem_filter.mpr ⟨StableHlo.devRef_mem_tcRefs main_arg1, by decide⟩)).trans (Gen.V4_main_arg1 m (outs m) c),
        (h (Proc.devRef .tc main_arg2) (Finset.mem_filter.mpr ⟨StableHlo.devRef_mem_tcRefs main_arg2, by decide⟩)).trans (Gen.V4_main_arg2 m (outs m) c),
        (h (Proc.devRef .tc main_arg3) (Finset.mem_filter.mpr ⟨StableHlo.devRef_mem_tcRefs main_arg3, by decide⟩)).trans (Gen.V4_main_arg3 m (outs m) c),
        (h (Proc.devRef .tc main_arg4) (Finset.mem_filter.mpr ⟨StableHlo.devRef_mem_tcRefs main_arg4, by decide⟩)).trans (Gen.V4_main_arg4 m (outs m) c),
        (h (Proc.devRef .tc main_arg5) (Finset.mem_filter.mpr ⟨StableHlo.devRef_mem_tcRefs main_arg5, by decide⟩)).trans (Gen.V4_main_arg5 m (outs m) c)⟩
    · iexact HSI

end Run

end Cert.KernelIdeal.Hand

end
-- ==== Proof.Spec.lean ====
/-
  Two graph-convolution layers, entry by entry, over the extended reals.

  With a dense matrix S (10000 by 10000), node features X (10000 by 128) and a weight matrix cut into the rows that
  meet the aggregated features (Wa) and the rows that meet the features themselves (Wb), one layer sends row p to

      layer p q = (Σ_{k<128} (Σ_{j<10000} S p j * X j k) * Wa k q  +  Σ_{k<128} X p k * Wb k q)  +  b q .

  The first layer is followed by the positive part (the maximum with zero), the second by nothing. The same number is
  reached when the aggregated and the plain features are first joined into 256 columns and met with the uncut 256-row
  weight matrix: the sum over the 256 joined columns is the sum over the first 128 plus the sum over the last 128
  (`sum_join`). Only associativity and commutativity of the addition of extended reals are used, so nothing is asked
  of the entries: they may be infinite.
-/
import Idealize.ShloMosaic.PureOps.Ideal.Laws
import Idealize.ShloMosaic.Lib.ValueIdx

noncomputable section

open scoped BigOperators

namespace Cert.Gcn

open Idealize.ShloMosaic Idealize.ShloMosaic.ValueIdx

/-- One layer before its activation, at row `p` and output column `q`. -/
def layer {n : ℕ} (S : Fin 10000 → Fin 10000 → EReal) (X : Fin 10000 → Fin 128 → EReal)
    (Wa Wb : Fin 128 → Fin n → EReal) (b : Fin n → EReal) (p : Fin 10000) (q : Fin n) : EReal :=
  ((∑ k : Fin 128, (∑ j : Fin 10000, S p j * X j k) * Wa k q) + ∑ k : Fin 128, X p k * Wb k q) + b q

/-- The positive part: the maximum with the number the all-zero 32-bit pattern denotes (which is zero). -/
def relu (x : EReal) : EReal := max x (Ideal.ofBits .f32 0x00000000#32)

/-- The hidden features: the first layer followed by the positive part. -/
def hidden (S : Fin 10000 → Fin 10000 → EReal) (X : Fin 10000 → Fin 128 → EReal)
    (W1a W1b : Fin 128 → Fin 128 → EReal) (b1 : Fin 128 → EReal) (p : Fin 10000) (q : Fin 128) : EReal :=
  relu (layer S X W1a W1b b1 p q)

/-- The result: the second layer over the hidden features, no activation. -/
def out (S : Fin 10000 → Fin 10000 → EReal) (X : Fin 10000 → Fin 128 → EReal)
    (W1a W1b : Fin 128 → Fin 128 → EReal) (b1 : Fin 128 → EReal)
    (W2a W2b : Fin 128 → Fin 64 → EReal) (b2 : Fin 64 → EReal) (p : Fin 10000) (r : Fin 64) : EReal :=
  layer S (hidden S X W1a W1b b1) W2a W2b b2 p r

/-- Column `k` of the first 128 of 256, and of the last 128. -/
abbrev lo (k : Fin 128) : Fin 256 := ⟨k.val, by omega⟩
abbrev hi (k : Fin 128) : Fin 256 := ⟨128 + k.val, by omega⟩

/-- A sum over 256 joined columns is the sum over the first 128 plus the sum over the last 128. -/
theorem sum_join (f : Fin 256 → EReal) : ∑ k : Fin 256, f k = (∑ k : Fin 128, f (lo k)) + ∑ k : Fin 128, f (hi k) := by
  have h := Fin.sum_univ_add (a := 128) (b := 128) (fun k : Fin (128 + 128) => f ⟨k.val, k.isLt⟩)
  simp only [Fin.val_castAdd, Fin.val_natAdd] at h
  exact h

/-! ## The same over arrays

The programs hold their matrices as arrays indexed by a pair of coordinates and their bias vectors as arrays indexed by
one; the uncut 256-row weight matrices are read at their first 128 rows (`top`) and their last 128 (`bot`). -/

/-- A rank-two array of extended reals, and a rank-one array. -/
abbrev Arr2 (a b : ℕ) : Type := (⟨2, ![a, b]⟩ : Shape).Idx → EReal
abbrev Arr1 (a : ℕ) : Type := (⟨1, ![a]⟩ : Shape).Idx → EReal

/-- The first 128 rows of a 256-row matrix, and its last 128 rows, by coordinates. -/
def top {n : ℕ} (w : Arr2 256 n) : Fin 128 → Fin n → EReal := fun k q => w (ix2 (lo k) q)
def bot {n : ℕ} (w : Arr2 256 n) : Fin 128 → Fin n → EReal := fun k q => w (ix2 (hi k) q)

/-- The hidden features as an array of the argument arrays. -/
def hiddenArr (x0 : Arr2 10000 10000) (x1 : Arr2 10000 128) (x2 : Arr2 256 128) (x3 : Arr1 128) : Arr2 10000 128 :=
  fun i => hidden (fun p j => x0 (ix2 p j)) (fun j k => x1 (ix2 j k)) (top x2) (bot x2) (fun q => x3 (ix1 q)) (i 0) (i 1)

/-- The result as an array of the argument arrays: the second layer over the hidden features' array. -/
def outArr (x0 : Arr2 10000 10000) (x1 : Arr2 10000 128) (x2 : Arr2 256 128) (x3 : Arr1 128) (x4 : Arr2 256 64)
    (x5 : Arr1 64) : Arr2 10000 64 :=
  fun i => layer (fun p j => x0 (ix2 p j)) (fun j k => hiddenArr x0 x1 x2 x3 (ix2 j k)) (top x4) (bot x4)
    (fun r => x5 (ix1 r)) (i 0) (i 1)

theorem hiddenArr_apply (x0 : Arr2 10000 10000) (x1 : Arr2 10000 128) (x2 : Arr2 256 128) (x3 : Arr1 128)
    (p : Fin 10000) (q : Fin 128) :
    hiddenArr x0 x1 x2 x3 (ix2 p q)
      = relu (layer (fun p j => x0 (ix2 p j)) (fun j k => x1 (ix2 j k)) (top x2) (bot x2) (fun q => x3 (ix1 q)) p q) := rfl

theorem outArr_apply (x0 : Arr2 10000 10000) (x1 : Arr2 10000 128) (x2 : Arr2 256 128) (x3 : Arr1 128) (x4 : Arr2 256 64)
    (x5 : Arr1 64) (p : Fin 10000) (r : Fin 64) :
    outArr x0 x1 x2 x3 x4 x5 (ix2 p r)
      = layer (fun p j => x0 (ix2 p j)) (fun j k => hiddenArr x0 x1 x2 x3 (ix2 j k)) (top x4) (bot x4)
          (fun r => x5 (ix1 r)) p r := rfl

end Cert.Gcn

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.PayloadIdeal.lean ====
/-
  The arithmetic of the two kernel bodies, read at one entry, over the extended reals.

  Each body holds one block of 400 rows of the big matrix S, the whole feature matrix X, the block's own 400 rows of X,
  two weight matrices Wa, Wb and one bias row b, and computes, at row p and column q of its block,

      (Σ_{k<128} (Σ_{j<10000} S p j * X j k) * Wa k q  +  Σ_{k<128} X p k * Wb k q)  +  b q ,

  the first body followed by the maximum with zero. Every operation between the loaded blocks and the stored block is
  either pointwise (a sum, a maximum, a change of float format, which is the identity on extended reals), a reshaping
  to the same shape (the identity), a row repeated down all rows, or a plain matrix product into a zero accumulator,
  whose entry is the finite sum of the products along the contracted axis.
-/
import proofs.«133459_g36893769073013_cont_8to1_b_1682_2_alg».proof.Proof.Gen.KernelIdeal.Skeleton
import proofs.«133459_g36893769073013_cont_8to1_b_1682_2_alg».proof.Proof.Spec
import proofs.«133459_g36893769073013_cont_8to1_b_1682_2_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The three dimension records are the plain ones -/

/-- A 400 by 10000 matrix times a 10000 by 128 one. -/
theorem dot_big : dot_S400x10000_S10000x128_S400x128_1_0_0_1_n_n = DotDims.plain 400 10000 128 := rfl
/-- A 400 by 128 matrix times a 128 by 128 one. -/
theorem dot_sq : dot_S400x128_S128x128_S400x128_1_0_0_1_n_n = DotDims.plain 400 128 128 := rfl
/-- A 400 by 128 matrix times a 128 by 64 one. -/
theorem dot_out : dot_S400x128_S128x64_S400x64_1_0_0_1_n_n = DotDims.plain 400 128 64 := rfl

/-! ## Products over variables -/

/-- Entry (p, q) of (a · b) · c, both products into zero accumulators and the inner product's float format changed in
    between (the identity on extended reals): the sum over k of (the sum over j of a p j * b j k) * c k q. -/
theorem matmul_matmul_apply {φ₁ φ₂ φ₃ ψ : FTy} (M K N P : Nat) (pr₁ pr₂ : Option ContractPrecision)
    (a : FVec Ideal ⟨2, ![M, K]⟩ φ₁) (b : FVec Ideal ⟨2, ![K, N]⟩ φ₂) (c : FVec Ideal ⟨2, ![N, P]⟩ φ₃)
    (h : ψ.bits < FTy.f32.bits) (p : Fin M) (q : Fin P) :
    FloatOps.matmul (DotDims.plain M N P) pr₂
        (truncf ψ (FloatOps.matmul (DotDims.plain M K N) pr₁ a b (constant ⟨2, ![M, N]⟩ .f32 0x00000000#32)) h) c
        (constant ⟨2, ![M, P]⟩ .f32 0x00000000#32) (ix2 p q)
      = ∑ k : Fin N, (∑ j : Fin K, a (ix2 p j) * b (ix2 j k)) * c (ix2 k q) := by
  refine (Cert.Lib.matmul_plain_zero_apply M N P pr₂ _ c p q).trans ?_
  refine Finset.sum_congr rfl fun k _ => ?_
  exact congrArg (· * c (ix2 k q)) (Cert.Lib.matmul_plain_zero_apply M K N pr₁ a b p k)

/-- One layer's arithmetic over variables, at entry (p, q): the product of a product, plus a product, plus a row
    repeated down all rows. -/
theorem layer_apply {φ₁ φ₂ φ₃ φ₄ φ₅ ψ : FTy} (M K N P : Nat) (pr₁ pr₂ pr₃ : Option ContractPrecision)
    (a : FVec Ideal ⟨2, ![M, K]⟩ φ₁) (b : FVec Ideal ⟨2, ![K, N]⟩ φ₂) (c : FVec Ideal ⟨2, ![N, P]⟩ φ₃)
    (x : FVec Ideal ⟨2, ![M, N]⟩ φ₄) (w : FVec Ideal ⟨2, ![N, P]⟩ φ₅) (r : FVec Ideal ⟨2, ![1, P]⟩ .f32)
    (h : ψ.bits < FTy.f32.bits) (hb : (⟨2, ![1, P]⟩ : Shape).Broadcasts ⟨2, ![M, P]⟩) (p : Fin M) (q : Fin P) :
    addf (addf
        (FloatOps.matmul (DotDims.plain M N P) pr₂
          (truncf ψ (FloatOps.matmul (DotDims.plain M K N) pr₁ a b (constant ⟨2, ![M, N]⟩ .f32 0x00000000#32)) h) c
          (constant ⟨2, ![M, P]⟩ .f32 0x00000000#32))
        (FloatOps.matmul (DotDims.plain M N P) pr₃ x w (constant ⟨2, ![M, P]⟩ .f32 0x00000000#32)))
      (broadcastTo ⟨2, ![M, P]⟩ r hb) (ix2 p q)
      = ((∑ k : Fin N, (∑ j : Fin K, a (ix2 p j) * b (ix2 j k)) * c (ix2 k q)) + ∑ k : Fin N, x (ix2 p k) * w (ix2 k q))
          + r (ix2 (0 : Fin 1) q) := by
  show (_ + _) + _ = _
  rw [matmul_matmul_apply M K N P pr₁ pr₂ a b c h p q, Cert.Lib.matmul_plain_zero_apply M N P pr₃ x w p q,
    broadcastTo_1b_ab_apply r hb p q]

/-! ## The two bodies -/

/-- THE FIRST BODY AT ENTRY (p, q): the layer's number followed by the maximum with zero. -/
theorem pay0_apply (v0 : Vec Ideal S400x10000 .f32) (v2 : Vec Ideal S10000x128 .bf16) (v6 : Vec Ideal S128x128 .bf16)
    (v9 : Vec Ideal S400x128 .bf16) (v11 : Vec Ideal S128x128 .bf16) (v15 : Vec Ideal S1x128 .f32) (p : Fin 400) (q : Fin 128) :
    k0_pay1 (F := Ideal) v0 v2 v6 v9 v11 v15 (ix2 p q)
      = Cert.Gcn.relu (((∑ k : Fin 128, (∑ j : Fin 10000, v0 (ix2 p j) * v2 (ix2 j k)) * v6 (ix2 k q))
          + ∑ k : Fin 128, v9 (ix2 p k) * v11 (ix2 k q)) + v15 (ix2 (0 : Fin 1) q)) := by
  unfold Gen.k0_pay1
  simp only [shapeCast_self]
  exact congrArg Cert.Gcn.relu (layer_apply 400 10000 128 128 none none none (truncf .bf16 v0 bitsLt_bf16_f32) v2 v6 v9 v11 v15
    bitsLt_bf16_f32 broadcasts_S1x128_S400x128 p q)

/-- THE SECOND BODY AT ENTRY (p, r): the layer's number, nothing after it. -/
theorem pay1_apply (v0 : Vec Ideal S400x10000 .f32) (v2 : Vec Ideal S10000x128 .bf16) (v6 : Vec Ideal S128x64 .bf16)
    (v9 : Vec Ideal S400x128 .bf16) (v11 : Vec Ideal S128x64 .bf16) (v15 : Vec Ideal S1x64 .f32) (p : Fin 400) (r : Fin 64) :
    k1_pay1 (F := Ideal) v0 v2 v6 v9 v11 v15 (ix2 p r)
      = ((∑ k : Fin 128, (∑ j : Fin 10000, v0 (ix2 p j) * v2 (ix2 j k)) * v6 (ix2 k r))
          + ∑ k : Fin 128, v9 (ix2 p k) * v11 (ix2 k r)) + v15 (ix2 (0 : Fin 1) r) := by
  unfold Gen.k1_pay1
  simp only [shapeCast_self]
  exact layer_apply 400 10000 128 64 none none none (truncf .bf16 v0 bitsLt_bf16_f32) v2 v6 v9 v11 v15
    bitsLt_bf16_f32 broadcasts_S1x64_S400x64 p r

end Cert.KernelIdeal.Pay

end
-- ==== Proof.ValueKernelIdeal.lean ====
/-
  What the two passes compute, at the ideal instance: the program's result array is the two-layer function of the
  argument arrays.

  The host operations before a pass only re-lay its operands: the feature matrix and the weight halves change float
  format (the identity on extended reals), the 256-row weight matrix is cut into its first and last 128 rows, the bias
  vector gets a leading unit axis. A pass's tile t reads rows 400 t … 400 t + 399 of the dense matrix and of the feature
  matrix, all of the feature matrix, the weight halves and the bias row, and writes rows 400 t … 400 t + 399 of its
  result: row 400 t + p of the result is the layer at row 400 t + p. The 25 tiles cover the 10000 rows, so the whole
  result array is the layer, row by row.
-/
import proofs.«133459_g36893769073013_cont_8to1_b_1682_2_alg».proof.Proof.RunKernelIdeal
import proofs.«133459_g36893769073013_cont_8to1_b_1682_2_alg».proof.Proof.PayloadIdeal
import proofs.«133459_g36893769073013_cont_8to1_b_1682_2_alg».proof.Proof.Spec
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Gcn

/-! ## What the host stretches leave in the passes' arrays -/

section HostValues
variable (m : (ℓ : Loc nD τ sig) → Buf (Elt Ideal) ℓ) (c : Dev nD)

/-- Pass 0 finds the dense matrix as launched. -/
theorem E1_arg0 : (E1 m c main_arg0 : S10000x10000.Idx → EReal) = m ((c : Thread nD τ).loc main_arg0) :=
  (Gen.V1_of m c main_arg0 (by decide)).trans rfl

/-- The feature matrix in the narrower format is the feature matrix. -/
theorem E1_v0 : (E1 m c main_v0 : S10000x128.Idx → EReal) = m ((c : Thread nD τ).loc main_arg1) := by
  show StableHlo.after hostOps0 (Gen.V0 m c) (Proc.devRef .tc main_v0) = _
  after_results
  rfl

/-- The first weight half is the first 128 rows of the first layer's weight matrix. -/
theorem E1_v2 (k q : Fin 128) : (E1 m c main_v2 : S128x128.Idx → EReal) (ix2 k q) = m ((c : Thread nD τ).loc main_arg2) (ix2 (lo k) q) := by
  have e : (E1 m c main_v2 : S128x128.Idx → EReal)
      = extractStridedSlice S128x128 ![0, 0] (m ((c : Thread nD τ).loc main_arg2)) slices_S256x128_S128x128_0_0 := by
    show StableHlo.after hostOps0 (Gen.V0 m c) (Proc.devRef .tc main_v2) = _
    after_results
    rfl
  rw [e]
  exact slice2_axis0_apply 0 _ _ k q (lo k) (by simp)

/-- The second weight half is its last 128 rows. -/
theorem E1_v4 (k q : Fin 128) : (E1 m c main_v4 : S128x128.Idx → EReal) (ix2 k q) = m ((c : Thread nD τ).loc main_arg2) (ix2 (hi k) q) := by
  have e : (E1 m c main_v4 : S128x128.Idx → EReal)
      = extractStridedSlice S128x128 ![128, 0] (m ((c : Thread nD τ).loc main_arg2)) slices_S256x128_S128x128_128_0 := by
    show StableHlo.after hostOps0 (Gen.V0 m c) (Proc.devRef .tc main_v4) = _
    after_results
    rfl
  rw [e]
  exact slice2_axis0_apply 128 _ _ k q (hi k) rfl

/-- The bias row is the bias vector. -/
theorem E1_v5 (q : Fin 128) : (E1 m c main_v5 : S1x128.Idx → EReal) (ix2 (0 : Fin 1) q) = m ((c : Thread nD τ).loc main_arg3) (ix1 q) := by
  have e : (E1 m c main_v5 : S1x128.Idx → EReal)
      = shapeCast S1x128 (m ((c : Thread nD τ).loc main_arg3)) shapeCasts_S128_S1x128 := by
    show StableHlo.after hostOps0 (Gen.V0 m c) (Proc.devRef .tc main_v5) = _
    after_results
    rfl
  rw [e]
  exact shapeCast_a_1a_apply _ _ 0 q

/-- No item before pass 1 writes the second layer's operands in the launch memory. -/
theorem V2_launch (r : Ref sig .tc) (h2 : r ∉ ([main_v6] : List (Ref sig .tc))) (h1 : r ∉ hostOps0_W) :
    Gen.V2 m (outs0 m) c r = m ((c : Thread nD τ).loc r) :=
  (Gen.V2_of m (outs0 m) c r h2).trans ((Gen.V1_of m c r h1).trans rfl)

/-- Pass 1 finds the dense matrix as launched, -/
theorem E3_arg0 : (E3 m c main_arg0 : S10000x10000.Idx → EReal) = m ((c : Thread nD τ).loc main_arg0) :=
  (Gen.V3_of m (outs0 m) c main_arg0 (by decide)).trans (V2_launch m c main_arg0 (by decide) (by decide))

/-- and the hidden features as pass 0 left them. -/
theorem E3_v6 : E3 m c main_v6 = hid m c :=
  (Gen.V3_of m (outs0 m) c main_v6 (by decide)).trans
    ((show Gen.V2 m (outs0 m) c main_v6 = outs0 m 2 main_v6 c from Function.update_self ..).trans (Function.update_self ..))

theorem E3_v8 (k : Fin 128) (r : Fin 64) : (E3 m c main_v8 : S128x64.Idx → EReal) (ix2 k r) = m ((c : Thread nD τ).loc main_arg4) (ix2 (lo k) r) := by
  have e : (E3 m c main_v8 : S128x64.Idx → EReal)
      = extractStridedSlice S128x64 ![0, 0] (Gen.V2 m (outs0 m) c main_arg4) slices_S256x64_S128x64_0_0 := by
    show StableHlo.after hostOps1 (Gen.V2 m (outs0 m) c) (Proc.devRef .tc main_v8) = _
    after_results
    rfl
  rw [e, V2_launch m c main_arg4 (by decide) (by decide)]
  exact slice2_axis0_apply 0 _ _ k r (lo k) (by simp)

theorem E3_v10 (k : Fin 128) (r : Fin 64) : (E3 m c main_v10 : S128x64.Idx → EReal) (ix2 k r) = m ((c : Thread nD τ).loc main_arg4) (ix2 (hi k) r) := by
  have e : (E3 m c main_v10 : S128x64.Idx → EReal)
      = extractStridedSlice S128x64 ![128, 0] (Gen.V2 m (outs0 m) c main_arg4) slices_S256x64_S128x64_128_0 := by
    show StableHlo.after hostOps1 (Gen.V2 m (outs0 m) c) (Proc.devRef .tc main_v10) = _
    after_results
    rfl
  rw [e, V2_launch m c main_arg4 (by decide) (by decide)]
  exact slice2_axis0_apply 128 _ _ k r (hi k) rfl

theorem E3_v11 (r : Fin 64) : (E3 m c main_v11 : S1x64.Idx → EReal) (ix2 (0 : Fin 1) r) = m ((c : Thread nD τ).loc main_arg5) (ix1 r) := by
  have e : (E3 m c main_v11 : S1x64.Idx → EReal)
      = shapeCast S1x64 (Gen.V2 m (outs0 m) c main_arg5) shapeCasts_S64_S1x64 := by
    show StableHlo.after hostOps1 (Gen.V2 m (outs0 m) c) (Proc.devRef .tc main_v11) = _
    after_results
    rfl
  rw [e, V2_launch m c main_arg5 (by decide) (by decide)]
  exact shapeCast_a_1a_apply _ _ 0 r

end HostValues

/-- Row p of the tile whose row block is n: row 400 n + p of the 10000. -/
def rowOf (n : ℕ) (hn : n ≤ 24) (p : Fin 400) : Fin 10000 := ⟨n * 400 + p.val, by have := p.isLt; omega⟩

/-! ## Pass 0: the tiles, and the array they leave -/

section Pass0Value
variable (V : (c : Dev nD) → (b : Ref sig .tc) → Buf (Elt Ideal) ((c : Thread nD τ).loc b)) (c : Dev nD)

/-- The printed index maps, decided over the 25 tiles: the dense matrix's window, the feature rows' window and the
    result's window sit at row block t, every other window at block zero, and no window moves along the columns. -/
theorem idx_facts0 : ∀ t : Fin cfg0.N,
    win0_0.index t (0 : Fin 2) = win0_6.index t (0 : Fin 2) ∧ win0_0.index t (1 : Fin 2) = 0
    ∧ win0_1.index t (0 : Fin 2) = 0 ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 24 :=
  (by decide +kernel : ∀ t : Fin grid0.N, _)

/-- Every one of the 25 row blocks is some tile's. -/
theorem idx_onto0 : ∀ q0 : Fin 25, ∃ t : Fin cfg0.N, win0_6.index t = ![q0.val, 0] :=
  (by decide +kernel : ∀ q0 : Fin 25, ∃ t : Fin grid0.N, win0_6.index t = ![q0.val, 0])

/-- The dense matrix's block at tile t, row p: row 400 n + p of the matrix, n the tile's row block. -/
theorem blk0_0 (t : Fin cfg0.N) (n : ℕ) (hn : n ≤ 24) (e0 : win0_0.index t (0 : Fin 2) = n) (e1 : win0_0.index t (1 : Fin 2) = 0)
    (p : Fin 400) (j : Fin 10000) :
    iblk0 V c 0 t (ix2 p j) = (V c main_arg0 : S10000x10000.Idx → EReal) (ix2 (rowOf n hn p) j) := by
  show V c main_arg0 (((cfg0.win 0).blk t).view.emb (ix2 p j)) = _
  refine congrArg (V c main_arg0) ?_
  funext a; apply Fin.ext
  match a with
  | ⟨0, _⟩ => show win0_0.index t (0 : Fin 2) * 400 + 1 * p.val = n * 400 + p.val; omega
  | ⟨1, _⟩ => show win0_0.index t (1 : Fin 2) * 10000 + 1 * j.val = j.val; omega

/-- The whole feature matrix's block is the feature matrix. -/
theorem blk0_1 (t : Fin cfg0.N) (e0 : win0_1.index t (0 : Fin 2) = 0) (e1 : win0_1.index t (1 : Fin 2) = 0)
    (j : Fin 10000) (k : Fin 128) :
    iblk0 V c 1 t (ix2 j k) = (V c main_v0 : S10000x128.Idx → EReal) (ix2 j k) := by
  show V c main_v0 (((cfg0.win 1).blk t).view.emb (ix2 j k)) = _
  refine congrArg (V c main_v0) ?_
  funext a; apply Fin.ext
  match a with
  | ⟨0, _⟩ => show win0_1.index t (0 : Fin 2) * 10000 + 1 * j.val = j.val; omega
  | ⟨1, _⟩ => show win0_1.index t (1 : Fin 2) * 128 + 1 * k.val = k.val; omega

/-- The feature rows' block at tile t, row p: row 400 n + p of the feature matrix. -/
theorem blk0_2 (t : Fin cfg0.N) (n : ℕ) (hn : n ≤ 24) (e0 : win0_2.index t (0 : Fin 2) = n) (e1 : win0_2.index t (1 : Fin 2) = 0)
    (p : Fin 400) (k : Fin 128) :
    iblk0 V c 2 t (ix2 p k) = (V c main_v0 : S10000x128.Idx → EReal) (ix2 (rowOf n hn p) k) := by
  show V c main_v0 (((cfg0.win 2).blk t).view.emb (ix2 p k)) = _
  refine congrArg (V c main_v0) ?_
  funext a; apply Fin.ext
  match a with
  | ⟨0, _⟩ => show win0_2.index t (0 : Fin 2) * 400 + 1 * p.val = n * 400 + p.val; omega
  | ⟨1, _⟩ => show win0_2.index t (1 : Fin 2) * 128 + 1 * k.val = k.val; omega

/-- The weight halves' blocks and the bias row's block are those arrays. -/
theorem blk0_3 (t : Fin cfg0.N) (e0 : win0_3.index t (0 : Fin 2) = 0) (e1 : win0_3.index t (1 : Fin 2) = 0)
    (k : Fin 128) (q : Fin 128) :
    iblk0 V c 3 t (ix2 k q) = (V c main_v2 : S128x128.Idx → EReal) (ix2 k q) := by
  show V c main_v2 (((cfg0.win 3).blk t).view.emb (ix2 k q)) = _
  refine congrArg (V c main_v2) ?_
  funext a; apply Fin.ext
  match a with
  | ⟨0, _⟩ => show win0_3.index t (0 : Fin 2) * 128 + 1 * k.val = k.val; omega
  | ⟨1, _⟩ => show win0_3.index t (1 : Fin 2) * 128 + 1 * q.val = q.val; omega
theorem blk0_4 (t : Fin cfg0.N) (e0 : win0_4.index t (0 : Fin 2) = 0) (e1 : win0_4.index t (1 : Fin 2) = 0)
    (k : Fin 128) (q : Fin 128) :
    iblk0 V c 4 t (ix2 k q) = (V c main_v4 : S128x128.Idx → EReal) (ix2 k q) := by
  show V c main_v4 (((cfg0.win 4).blk t).view.emb (ix2 k q)) = _
  refine congrArg (V c main_v4) ?_
  funext a; apply Fin.ext
  match a with
  | ⟨0, _⟩ => show win0_4.index t (0 : Fin 2) * 128 + 1 * k.val = k.val; omega
  | ⟨1, _⟩ => show win0_4.index t (1 : Fin 2) * 128 + 1 * q.val = q.val; omega
theorem blk0_5 (t : Fin cfg0.N) (e0 : win0_5.index t (0 : Fin 2) = 0) (e1 : win0_5.index t (1 : Fin 2) = 0)
    (u : Fin 1) (q : Fin 128) :
    iblk0 V c 5 t (ix2 u q) = (V c main_v5 : S1x128.Idx → EReal) (ix2 u q) := by
  show V c main_v5 (((cfg0.win 5).blk t).view.emb (ix2 u q)) = _
  refine congrArg (V c main_v5) ?_
  funext a; apply Fin.ext
  match a with
  | ⟨0, _⟩ => show win0_5.index t (0 : Fin 2) * 1 + 1 * u.val = u.val; omega
  | ⟨1, _⟩ => show win0_5.index t (1 : Fin 2) * 128 + 1 * q.val = q.val; omega

variable (a0 : Arr2 10000 10000) (a1 : Arr2 10000 128) (wa wb : Fin 128 → Fin 128 → EReal) (b : Fin 128 → EReal)

/-- The layer, followed by the positive part, as an array, row by row. -/
def G0 : S10000x128.Idx → EReal :=
  fun i => relu (layer (fun p j => a0 (ix2 p j)) (fun j k => a1 (ix2 j k)) wa wb b (i 0) (i 1))

variable (h0 : (V c main_arg0 : S10000x10000.Idx → EReal) = a0) (h1 : (V c main_v0 : S10000x128.Idx → EReal) = a1)
  (h3 : ∀ (k : Fin 128) (q : Fin 128), (V c main_v2 : S128x128.Idx → EReal) (ix2 k q) = wa k q)
  (h4 : ∀ (k : Fin 128) (q : Fin 128), (V c main_v4 : S128x128.Idx → EReal) (ix2 k q) = wb k q)
  (h5 : ∀ q : Fin 128, (V c main_v5 : S1x128.Idx → EReal) (ix2 (0 : Fin 1) q) = b q)

include h0 h1 h3 h4 h5 in
/-- WHAT TILE t WRITES BACK is block t of the layer's array: the body's arithmetic on the six blocks is the layer at
    rows 400 n … 400 n + 399, n the tile's row block. -/
theorem flushed0_eq (t : Fin cfg0.N) :
    (dat0 V c).flushed 6 t = ((cfg0.win 6).blk t).view.read (Elt Ideal) (G0 a0 a1 wa wb b) := by
  show (cfg0.win 6).cut (grid0.coords t) ((dat0 V c).after 6 t) = _
  rw [after0_6]
  unfold out0_6
  rw [View.canon_unit_zero Cert.Lib.zeros2]
  simp only [View.ld_unit_zero (S := S400x10000) Cert.Lib.zeros2, View.ld_unit_zero (S := S10000x128) Cert.Lib.zeros2,
    View.ld_unit_zero (S := S400x128) Cert.Lib.zeros2, View.ld_unit_zero (S := S128x128) Cert.Lib.zeros2,
    View.ld_unit_zero (S := S1x128) Cert.Lib.zeros2]
  obtain ⟨e00, e01, e10, e11, e20, e21, e30, e31, e40, e41, e50, e51, e61, e6⟩ := idx_facts0 t
  funext j
  obtain ⟨p, q, rfl⟩ : ∃ (p : Fin 400) (q : Fin 128), j = ix2 p q := ⟨j 0, j 1, eq_ix2 j⟩
  refine (Cert.KernelIdeal.Pay.pay0_apply _ _ _ _ _ _ p q).trans ?_
  have hemb : ((cfg0.win 6).blk t).view.emb (ix2 p q) = ix2 (rowOf _ e6 p) q := by
    funext a; apply Fin.ext
    match a with
    | ⟨0, _⟩ => show win0_6.index t (0 : Fin 2) * 400 + 1 * p.val = win0_6.index t (0 : Fin 2) * 400 + p.val; omega
    | ⟨1, _⟩ => show win0_6.index t (1 : Fin 2) * 128 + 1 * q.val = q.val; omega
  show _ = G0 a0 a1 wa wb b (((cfg0.win 6).blk t).view.emb (ix2 p q))
  rw [hemb]
  unfold G0 layer
  simp only [blk0_0 V c t _ e6 e00 e01, blk0_1 V c t e10 e11, blk0_2 V c t _ e6 e20 e21, blk0_3 V c t e30 e31,
    blk0_4 V c t e40 e41, blk0_5 V c t e50 e51, h0, h1, h3, h4, h5]

/-- An index of the result array is in tile t's block iff each coordinate is in the block's range on its axis. -/
theorem mem_blk0 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v6).slice (win0_6.rect t)).set ↔ _
  rw [View.set_slice_whole, Rect.mem_set_unit]
  exact Iff.rfl

/-- Every index of the result array is in some tile's block: row r is in the block of tile r / 400. -/
theorem cover0 (i : S10000x128.Idx) : ∃ t : Fin cfg0.N, (cfg0.win 6).flush t = true ∧ i ∈ ((cfg0.win 6).blk t).view.set := by
  have hi0 : (i 0).val < 10000 := (i 0).isLt
  have hi1 : (i 1).val < 128 := (i 1).isLt
  obtain ⟨t, ht⟩ := idx_onto0 ⟨(i 0).val / 400, by omega⟩
  have q0 : win0_6.index t (0 : Fin 2) = (i 0).val / 400 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 128 ≤ (i 1).val ∧ (i 1).val < win0_6.index t (1 : Fin 2) * 128 + 128; omega

include h0 h1 h3 h4 h5 in
/-- THE RESULT ARRAY after the pass is the layer's array. -/
theorem final0 : (dat0 V c).arrAt 6 cfg0.N = G0 a0 a1 wa wb b :=
  (dat0 V c).arrAt_eq_of_cover 6 (G0 a0 a1 wa wb b) (fun t _ => flushed0_eq V c a0 a1 wa wb b h0 h1 h3 h4 h5 t) (cover0)

end Pass0Value

/-! ## Pass 1: the tiles, and the array they leave -/

section Pass1Value
variable (V : (c : Dev nD) → (b : Ref sig .tc) → Buf (Elt Ideal) ((c : Thread nD τ).loc b)) (c : Dev nD)

/-- The printed index maps, decided over the 25 tiles: the dense matrix's window, the feature rows' window and the
    result's window sit at row block t, every other window at block zero, and no window moves along the columns. -/
theorem idx_facts1 : ∀ t : Fin cfg1.N,
    win1_0.index t (0 : Fin 2) = win1_6.index t (0 : Fin 2) ∧ win1_0.index t (1 : Fin 2) = 0
    ∧ win1_1.index t (0 : Fin 2) = 0 ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 24 :=
  (by decide +kernel : ∀ t : Fin grid1.N, _)

/-- Every one of the 25 row blocks is some tile's. -/
theorem idx_onto1 : ∀ q0 : Fin 25, ∃ t : Fin cfg1.N, win1_6.index t = ![q0.val, 0] :=
  (by decide +kernel : ∀ q0 : Fin 25, ∃ t : Fin grid1.N, win1_6.index t = ![q0.val, 0])

/-- The dense matrix's block at tile t, row p: row 400 n + p of the matrix, n the tile's row block. -/
theorem blk1_0 (t : Fin cfg1.N) (n : ℕ) (hn : n ≤ 24) (e0 : win1_0.index t (0 : Fin 2) = n) (e1 : win1_0.index t (1 : Fin 2) = 0)
    (p : Fin 400) (j : Fin 10000) :
    iblk1 V c 0 t (ix2 p j) = (V c main_arg0 : S10000x10000.Idx → EReal) (ix2 (rowOf n hn p) j) := by
  show V c main_arg0 (((cfg1.win 0).blk t).view.emb (ix2 p j)) = _
  refine congrArg (V c main_arg0) ?_
  funext a; apply Fin.ext
  match a with
  | ⟨0, _⟩ => show win1_0.index t (0 : Fin 2) * 400 + 1 * p.val = n * 400 + p.val; omega
  | ⟨1, _⟩ => show win1_0.index t (1 : Fin 2) * 10000 + 1 * j.val = j.val; omega

/-- The whole feature matrix's block is the feature matrix. -/
theorem blk1_1 (t : Fin cfg1.N) (e0 : win1_1.index t (0 : Fin 2) = 0) (e1 : win1_1.index t (1 : Fin 2) = 0)
    (j : Fin 10000) (k : Fin 128) :
    iblk1 V c 1 t (ix2 j k) = (V c main_v6 : S10000x128.Idx → EReal) (ix2 j k) := by
  show V c main_v6 (((cfg1.win 1).blk t).view.emb (ix2 j k)) = _
  refine congrArg (V c main_v6) ?_
  funext a; apply Fin.ext
  match a with
  | ⟨0, _⟩ => show win1_1.index t (0 : Fin 2) * 10000 + 1 * j.val = j.val; omega
  | ⟨1, _⟩ => show win1_1.index t (1 : Fin 2) * 128 + 1 * k.val = k.val; omega

/-- The feature rows' block at tile t, row p: row 400 n + p of the feature matrix. -/
theorem blk1_2 (t : Fin cfg1.N) (n : ℕ) (hn : n ≤ 24) (e0 : win1_2.index t (0 : Fin 2) = n) (e1 : win1_2.index t (1 : Fin 2) = 0)
    (p : Fin 400) (k : Fin 128) :
    iblk1 V c 2 t (ix2 p k) = (V c main_v6 : S10000x128.Idx → EReal) (ix2 (rowOf n hn p) k) := by
  show V c main_v6 (((cfg1.win 2).blk t).view.emb (ix2 p k)) = _
  refine congrArg (V c main_v6) ?_
  funext a; apply Fin.ext
  match a with
  | ⟨0, _⟩ => show win1_2.index t (0 : Fin 2) * 400 + 1 * p.val = n * 400 + p.val; omega
  | ⟨1, _⟩ => show win1_2.index t (1 : Fin 2) * 128 + 1 * k.val = k.val; omega

/-- The weight halves' blocks and the bias row's block are those arrays. -/
theorem blk1_3 (t : Fin cfg1.N) (e0 : win1_3.index t (0 : Fin 2) = 0) (e1 : win1_3.index t (1 : Fin 2) = 0)
    (k : Fin 128) (q : Fin 64) :
    iblk1 V c 3 t (ix2 k q) = (V c main_v8 : S128x64.Idx → EReal) (ix2 k q) := by
  show V c main_v8 (((cfg1.win 3).blk t).view.emb (ix2 k q)) = _
  refine congrArg (V c main_v8) ?_
  funext a; apply Fin.ext
  match a with
  | ⟨0, _⟩ => show win1_3.index t (0 : Fin 2) * 128 + 1 * k.val = k.val; omega
  | ⟨1, _⟩ => show win1_3.index t (1 : Fin 2) * 64 + 1 * q.val = q.val; omega
theorem blk1_4 (t : Fin cfg1.N) (e0 : win1_4.index t (0 : Fin 2) = 0) (e1 : win1_4.index t (1 : Fin 2) = 0)
    (k : Fin 128) (q : Fin 64) :
    iblk1 V c 4 t (ix2 k q) = (V c main_v10 : S128x64.Idx → EReal) (ix2 k q) := by
  show V c main_v10 (((cfg1.win 4).blk t).view.emb (ix2 k q)) = _
  refine congrArg (V c main_v10) ?_
  funext a; apply Fin.ext
  match a with
  | ⟨0, _⟩ => show win1_4.index t (0 : Fin 2) * 128 + 1 * k.val = k.val; omega
  | ⟨1, _⟩ => show win1_4.index t (1 : Fin 2) * 64 + 1 * q.val = q.val; omega
theorem blk1_5 (t : Fin cfg1.N) (e0 : win1_5.index t (0 : Fin 2) = 0) (e1 : win1_5.index t (1 : Fin 2) = 0)
    (u : Fin 1) (q : Fin 64) :
    iblk1 V c 5 t (ix2 u q) = (V c main_v11 : S1x64.Idx → EReal) (ix2 u q) := by
  show V c main_v11 (((cfg1.win 5).blk t).view.emb (ix2 u q)) = _
  refine congrArg (V c main_v11) ?_
  funext a; apply Fin.ext
  match a with
  | ⟨0, _⟩ => show win1_5.index t (0 : Fin 2) * 1 + 1 * u.val = u.val; omega
  | ⟨1, _⟩ => show win1_5.index t (1 : Fin 2) * 64 + 1 * q.val = q.val; omega

variable (a0 : Arr2 10000 10000) (a1 : Arr2 10000 128) (wa wb : Fin 128 → Fin 64 → EReal) (b : Fin 64 → EReal)

/-- The layer as an array, row by row. -/
def G1 : S10000x64.Idx → EReal :=
  fun i => layer (fun p j => a0 (ix2 p j)) (fun j k => a1 (ix2 j k)) wa wb b (i 0) (i 1)

variable (h0 : (V c main_arg0 : S10000x10000.Idx → EReal) = a0) (h1 : (V c main_v6 : S10000x128.Idx → EReal) = a1)
  (h3 : ∀ (k : Fin 128) (q : Fin 64), (V c main_v8 : S128x64.Idx → EReal) (ix2 k q) = wa k q)
  (h4 : ∀ (k : Fin 128) (q : Fin 64), (V c main_v10 : S128x64.Idx → EReal) (ix2 k q) = wb k q)
  (h5 : ∀ q : Fin 64, (V c main_v11 : S1x64.Idx → EReal) (ix2 (0 : Fin 1) q) = b q)

include h0 h1 h3 h4 h5 in
/-- WHAT TILE t WRITES BACK is block t of the layer's array: the body's arithmetic on the six blocks is the layer at
    rows 400 n … 400 n + 399, n the tile's row block. -/
theorem flushed1_eq (t : Fin cfg1.N) :
    (dat1 V c).flushed 6 t = ((cfg1.win 6).blk t).view.read (Elt Ideal) (G1 a0 a1 wa wb b) := by
  show (cfg1.win 6).cut (grid1.coords t) ((dat1 V c).after 6 t) = _
  rw [after1_6]
  unfold out1_6
  rw [View.canon_unit_zero Cert.Lib.zeros2]
  simp only [View.ld_unit_zero (S := S400x10000) Cert.Lib.zeros2, View.ld_unit_zero (S := S10000x128) Cert.Lib.zeros2,
    View.ld_unit_zero (S := S400x128) Cert.Lib.zeros2, View.ld_unit_zero (S := S128x64) Cert.Lib.zeros2,
    View.ld_unit_zero (S := S1x64) Cert.Lib.zeros2]
  obtain ⟨e00, e01, e10, e11, e20, e21, e30, e31, e40, e41, e50, e51, e61, e6⟩ := idx_facts1 t
  funext j
  obtain ⟨p, q, rfl⟩ : ∃ (p : Fin 400) (q : Fin 64), j = ix2 p q := ⟨j 0, j 1, eq_ix2 j⟩
  refine (Cert.KernelIdeal.Pay.pay1_apply _ _ _ _ _ _ p q).trans ?_
  have hemb : ((cfg1.win 6).blk t).view.emb (ix2 p q) = ix2 (rowOf _ e6 p) q := by
    funext a; apply Fin.ext
    match a with
    | ⟨0, _⟩ => show win1_6.index t (0 : Fin 2) * 400 + 1 * p.val = win1_6.index t (0 : Fin 2) * 400 + p.val; omega
    | ⟨1, _⟩ => show win1_6.index t (1 : Fin 2) * 64 + 1 * q.val = q.val; omega
  show _ = G1 a0 a1 wa wb b (((cfg1.win 6).blk t).view.emb (ix2 p q))
  rw [hemb]
  unfold G1 layer
  simp only [blk1_0 V c t _ e6 e00 e01, blk1_1 V c t e10 e11, blk1_2 V c t _ e6 e20 e21, blk1_3 V c t e30 e31,
    blk1_4 V c t e40 e41, blk1_5 V c t e50 e51, h0, h1, h3, h4, h5]

/-- An index of the result array is in tile t's block iff each coordinate is in the block's range on its axis. -/
theorem mem_blk1 (t : Fin cfg1.N) (i : S10000x64.Idx) :
    i ∈ ((cfg1.win 6).blk t).view.set ↔ ∀ a : Fin 2, win1_6.index t a * S400x64.size a ≤ (i a).val ∧ (i a).val < win1_6.index t a * S400x64.size a + S400x64.size a := by
  show i ∈ ((View.whole main_v12).slice (win1_6.rect t)).set ↔ _
  rw [View.set_slice_whole, Rect.mem_set_unit]
  exact Iff.rfl

/-- Every index of the result array is in some tile's block: row r is in the block of tile r / 400. -/
theorem cover1 (i : S10000x64.Idx) : ∃ t : Fin cfg1.N, (cfg1.win 6).flush t = true ∧ i ∈ ((cfg1.win 6).blk t).view.set := by
  have hi0 : (i 0).val < 10000 := (i 0).isLt
  have hi1 : (i 1).val < 64 := (i 1).isLt
  obtain ⟨t, ht⟩ := idx_onto1 ⟨(i 0).val / 400, by omega⟩
  have q0 : win1_6.index t (0 : Fin 2) = (i 0).val / 400 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 400 ≤ (i 0).val ∧ (i 0).val < win1_6.index t (0 : Fin 2) * 400 + 400; omega
  | ⟨1, _⟩ => show win1_6.index t (1 : Fin 2) * 64 ≤ (i 1).val ∧ (i 1).val < win1_6.index t (1 : Fin 2) * 64 + 64; omega

include h0 h1 h3 h4 h5 in
/-- THE RESULT ARRAY after the pass is the layer's array. -/
theorem final1 : (dat1 V c).arrAt 6 cfg1.N = G1 a0 a1 wa wb b :=
  (dat1 V c).arrAt_eq_of_cover 6 (G1 a0 a1 wa wb b) (fun t _ => flushed1_eq V c a0 a1 wa wb b h0 h1 h3 h4 h5 t) (cover1)

end Pass1Value

/-! ## The two passes, joined -/

section Result
variable (m : (ℓ : Loc nD τ sig) → Buf (Elt Ideal) ℓ) (c : Dev nD)

/-- What pass 0 leaves in the hidden features' array is the first layer, followed by the positive part, of the
    argument arrays. -/
theorem hid_eq : (hid m c : S10000x128.Idx → EReal)
    = hiddenArr (m ((c : Thread nD τ).loc main_arg0)) (m ((c : Thread nD τ).loc main_arg1)) (m ((c : Thread nD τ).loc main_arg2)) (m ((c : Thread nD τ).loc main_arg3)) := by
  unfold hid
  exact (final0 (E1 m) c (m ((c : Thread nD τ).loc main_arg0)) (m ((c : Thread nD τ).loc main_arg1)) (top (m ((c : Thread nD τ).loc main_arg2))) (bot (m ((c : Thread nD τ).loc main_arg2)))
    (fun q => (m ((c : Thread nD τ).loc main_arg3)) (ix1 q)) (E1_arg0 m c) (E1_v0 m c) (E1_v2 m c) (E1_v4 m c) (E1_v5 m c)).trans rfl

/-- What pass 1 leaves in the result array is the second layer over those hidden features: the two-layer function of
    the argument arrays. -/
theorem res_eq : (res m c : S10000x64.Idx → EReal)
    = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold res
  exact (final1 (E3 m) c (m ((c : Thread nD τ).loc main_arg0))
    (hiddenArr (m ((c : Thread nD τ).loc main_arg0)) (m ((c : Thread nD τ).loc main_arg1)) (m ((c : Thread nD τ).loc main_arg2)) (m ((c : Thread nD τ).loc main_arg3)))
    (top (m ((c : Thread nD τ).loc main_arg4))) (bot (m ((c : Thread nD τ).loc main_arg4))) (fun r => (m ((c : Thread nD τ).loc main_arg5)) (ix1 r))
    (E3_arg0 m c) ((E3_v6 m c).trans (hid_eq m c)) (E3_v8 m c) (E3_v10 m c) (E3_v11 m c)).trans rfl

end Result

end Cert.KernelIdeal.Hand

end
-- ==== Proof.LibConcatCols.lean ====
/-
  Two arrays joined along their columns, read at an entry.

  For `x₁ : [R, A]` and `x₂ : [R, B]` joined along axis 1 into `[R, A + B]`, entry `(p, j)` with `j < A` is `x₁ (p, j)`
  and entry `(p, A + j)` is `x₂ (p, j)`.
-/
import Idealize.ShloMosaic.Lib.Pipeline.Value
import Idealize.ShloMosaic.Lib.ValueIdx

noncomputable section

namespace Cert.Lib

open Idealize.ShloMosaic Idealize.ShloMosaic.ValueIdx

variable {α : Type}

/-- ENTRY `(p, j)`, `j` in the first piece's columns: the first piece at `(p, j)`. -/
theorem concat_cols_left {R A B C : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, C]⟩ 1) (p : Fin R) (j : Fin A) (j' : Fin C) (hj : j'.val = j.val) :
    concatenate ⟨2, ![R, C]⟩ 1 [⟨⟨2, ![R, A]⟩, x₁⟩, ⟨⟨2, ![R, B]⟩, x₂⟩] h (ix2 p j') = x₁ (ix2 p j) :=
  concatenate_pair_apply_left 1 x₁ x₂ h (ix2 p j') rfl (ix2 p j) (fun b => by
    match b with
    | ⟨0, _⟩ => rfl
    | ⟨1, _⟩ => exact hj.symm)

/-- ENTRY `(p, A + j)`: the second piece at `(p, j)`. -/
theorem concat_cols_right {R A B C : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, C]⟩ 1) (p : Fin R) (j : Fin B) (j' : Fin C) (hj : j'.val = A + j.val) :
    concatenate ⟨2, ![R, C]⟩ 1 [⟨⟨2, ![R, A]⟩, x₁⟩, ⟨⟨2, ![R, B]⟩, x₂⟩] h (ix2 p j') = x₂ (ix2 p j) :=
  concatenate_pair_apply_right 1 x₁ x₂ h (ix2 p j') rfl rfl (ix2 p j) (fun b hb => by
    match b with
    | ⟨0, _⟩ => rfl
    | ⟨1, _⟩ => exact absurd rfl hb)
    (by show j.val + A = j'.val; omega)

end Cert.Lib

end
-- ==== Proof.RefIsSpec.lean ====
/-
  The reference program is the two-layer specification, entry by entry.

  The reference joins the aggregated features S·X (10000 by 128) and the features X themselves into 256 columns and
  meets them with the uncut 256-row weight matrix; at entry (p, q) this is a sum over the 256 joined columns. That sum
  is the sum over the first 128 columns, where the joined array holds S·X and the weight matrix its first 128 rows,
  plus the sum over the last 128, where the joined array holds X and the weight matrix its last 128 rows. Adding the
  bias read at the column q gives `layer`; the first layer is followed by the maximum with zero (`hidden`), and the
  second layer runs the same reading over the hidden features (`out`). No property of the entries is used.
-/
import proofs.«133459_g36893769073013_cont_8to1_b_1682_2_alg».proof.Proof.Gen.ReferenceIdeal.Read
import proofs.«133459_g36893769073013_cont_8to1_b_1682_2_alg».proof.Proof.Spec
import proofs.«133459_g36893769073013_cont_8to1_b_1682_2_alg».proof.Proof.LibConcatCols

noncomputable section

open scoped BigOperators

namespace Cert.Gcn.Ref

open Cert.ReferenceIdeal Cert.ReferenceIdeal.Gen Cert.ReferenceIdeal.Read Idealize.ShloMosaic Idealize.ShloMosaic.ValueIdx Cert.Gcn

/-! ## Indices of the contractions, by coordinates -/

theorem lidx_v0 (p : Fin 10000) (q : Fin 128) (j : Fin 10000) : lidx_main_v0 (ix2 p q) j = ix2 p j := by
  funext a; match a with
  | ⟨0, _⟩ => rfl
  | ⟨1, _⟩ => rfl

theorem ridx_v0 (p : Fin 10000) (q : Fin 128) (j : Fin 10000) : ridx_main_v0 (ix2 p q) j = ix2 j q := by
  funext a; match a with
  | ⟨0, _⟩ => rfl
  | ⟨1, _⟩ => rfl

theorem lidx_v2 (p : Fin 10000) (q : Fin 128) (k : Fin 256) : lidx_main_v2 (ix2 p q) k = ix2 p k := by
  funext a; match a with
  | ⟨0, _⟩ => rfl
  | ⟨1, _⟩ => rfl

theorem ridx_v2 (p : Fin 10000) (q : Fin 128) (k : Fin 256) : ridx_main_v2 (ix2 p q) k = ix2 k q := by
  funext a; match a with
  | ⟨0, _⟩ => rfl
  | ⟨1, _⟩ => rfl

theorem bias_idx_v4 (p : Fin 10000) (q : Fin 128) : idx_main_v3 (idx_main_v4 (ix2 p q)) = ix1 q := by
  funext a; match a with
  | ⟨0, _⟩ => rfl

/-! ## The stages of the first layer at an entry -/

theorem v0_at (x0 : (⟨S10000x10000, .f32⟩ : BufTy).Contents (Elt Ideal)) (x1 : (⟨S10000x128, .f32⟩ : BufTy).Contents (Elt Ideal))
    (p : Fin 10000) (k : Fin 128) :
    val_main_v0 (F := Ideal) x0 x1 (ix2 p k) = ∑ j : Fin 10000, x0 (ix2 p j) * x1 (ix2 j k) := by
  rw [val_main_v0_apply]
  refine Finset.sum_congr rfl fun j _ => ?_
  rw [lidx_v0, ridx_v0]

theorem v1_lo (x0 : (⟨S10000x10000, .f32⟩ : BufTy).Contents (Elt Ideal)) (x1 : (⟨S10000x128, .f32⟩ : BufTy).Contents (Elt Ideal))
    (p : Fin 10000) (k : Fin 128) :
    val_main_v1 (F := Ideal) x0 x1 (ix2 p (lo k)) = val_main_v0 (F := Ideal) x0 x1 (ix2 p k) :=
  Cert.Lib.concat_cols_left (val_main_v0 (F := Ideal) x0 x1) x1 concatenates_S10000x128_S10000x128_S10000x256_d1 p k (lo k) rfl

theorem v1_hi (x0 : (⟨S10000x10000, .f32⟩ : BufTy).Contents (Elt Ideal)) (x1 : (⟨S10000x128, .f32⟩ : BufTy).Contents (Elt Ideal))
    (p : Fin 10000) (k : Fin 128) :
    val_main_v1 (F := Ideal) x0 x1 (ix2 p (hi k)) = x1 (ix2 p k) :=
  Cert.Lib.concat_cols_right (val_main_v0 (F := Ideal) x0 x1) x1 concatenates_S10000x128_S10000x128_S10000x256_d1 p k (hi k) rfl

theorem v2_at (x0 : (⟨S10000x10000, .f32⟩ : BufTy).Contents (Elt Ideal)) (x1 : (⟨S10000x128, .f32⟩ : BufTy).Contents (Elt Ideal))
    (x2 : (⟨S256x128, .f32⟩ : BufTy).Contents (Elt Ideal)) (p : Fin 10000) (q : Fin 128) :
    val_main_v2 (F := Ideal) x0 x1 x2 (ix2 p q)
      = (∑ k : Fin 128, (∑ j : Fin 10000, x0 (ix2 p j) * x1 (ix2 j k)) * top x2 k q)
          + ∑ k : Fin 128, x1 (ix2 p k) * bot x2 k q := by
  rw [val_main_v2_apply]
  have h : ∀ k : Fin 256, val_main_v1 (F := Ideal) x0 x1 (lidx_main_v2 (ix2 p q) k) * x2 (ridx_main_v2 (ix2 p q) k)
      = val_main_v1 (F := Ideal) x0 x1 (ix2 p k) * x2 (ix2 k q) := fun k => by rw [lidx_v2, ridx_v2]
  rw [Finset.sum_congr rfl fun k _ => h k, sum_join]
  congr 1
  · refine Finset.sum_congr rfl fun k _ => ?_
    rw [v1_lo, v0_at]
    rfl
  · refine Finset.sum_congr rfl fun k _ => ?_
    rw [v1_hi]
    rfl

theorem v4_at (x3 : (⟨S128, .f32⟩ : BufTy).Contents (Elt Ideal)) (p : Fin 10000) (q : Fin 128) :
    val_main_v4 (F := Ideal) x3 (ix2 p q) = x3 (ix1 q) := by
  rw [val_main_v4_apply, val_main_v3_apply, bias_idx_v4]

theorem zero_at (i : S10000x128.Idx) : val_main_call0_v0 (F := Ideal) i = Ideal.ofBits .f32 0x00000000#32 := by
  rw [val_main_call0_v0_apply]
  rfl

/-- The reference's hidden features are the first layer followed by the positive part. -/
theorem ref_hidden (x0 : (⟨S10000x10000, .f32⟩ : BufTy).Contents (Elt Ideal)) (x1 : (⟨S10000x128, .f32⟩ : BufTy).Contents (Elt Ideal))
    (x2 : (⟨S256x128, .f32⟩ : BufTy).Contents (Elt Ideal)) (x3 : (⟨S128, .f32⟩ : BufTy).Contents (Elt Ideal)) :
    val_main_v6 (F := Ideal) x0 x1 x2 x3 = Cert.Gcn.hiddenArr x0 x1 x2 x3 := by
  funext i
  obtain ⟨p, q, rfl⟩ : ∃ (p : Fin 10000) (q : Fin 128), i = ix2 p q := ⟨i 0, i 1, eq_ix2 i⟩
  rw [val_main_v6_apply, val_main_v5_apply, zero_at, v2_at, v4_at, hiddenArr_apply]
  rfl

/-! ## The second layer -/

theorem lidx_v7 (p : Fin 10000) (q : Fin 128) (j : Fin 10000) : lidx_main_v7 (ix2 p q) j = ix2 p j := by
  funext a; match a with
  | ⟨0, _⟩ => rfl
  | ⟨1, _⟩ => rfl

theorem ridx_v7 (p : Fin 10000) (q : Fin 128) (j : Fin 10000) : ridx_main_v7 (ix2 p q) j = ix2 j q := by
  funext a; match a with
  | ⟨0, _⟩ => rfl
  | ⟨1, _⟩ => rfl

theorem lidx_v9 (p : Fin 10000) (r : Fin 64) (k : Fin 256) : lidx_main_v9 (ix2 p r) k = ix2 p k := by
  funext a; match a with
  | ⟨0, _⟩ => rfl
  | ⟨1, _⟩ => rfl

theorem ridx_v9 (p : Fin 10000) (r : Fin 64) (k : Fin 256) : ridx_main_v9 (ix2 p r) k = ix2 k r := by
  funext a; match a with
  | ⟨0, _⟩ => rfl
  | ⟨1, _⟩ => rfl

theorem bias_idx_v11 (p : Fin 10000) (r : Fin 64) : idx_main_v10 (idx_main_v11 (ix2 p r)) = ix1 r := by
  funext a; match a with
  | ⟨0, _⟩ => rfl

theorem v7_at (x0 : (⟨S10000x10000, .f32⟩ : BufTy).Contents (Elt Ideal)) (x1 : (⟨S10000x128, .f32⟩ : BufTy).Contents (Elt Ideal))
    (x2 : (⟨S256x128, .f32⟩ : BufTy).Contents (Elt Ideal)) (x3 : (⟨S128, .f32⟩ : BufTy).Contents (Elt Ideal))
    (p : Fin 10000) (k : Fin 128) :
    val_main_v7 (F := Ideal) x0 x1 x2 x3 (ix2 p k) = ∑ j : Fin 10000, x0 (ix2 p j) * hiddenArr x0 x1 x2 x3 (ix2 j k) := by
  rw [val_main_v7_apply, ref_hidden]
  refine Finset.sum_congr rfl fun j _ => ?_
  rw [lidx_v7, ridx_v7]

theorem v8_lo (x0 : (⟨S10000x10000, .f32⟩ : BufTy).Contents (Elt Ideal)) (x1 : (⟨S10000x128, .f32⟩ : BufTy).Contents (Elt Ideal))
    (x2 : (⟨S256x128, .f32⟩ : BufTy).Contents (Elt Ideal)) (x3 : (⟨S128, .f32⟩ : BufTy).Contents (Elt Ideal))
    (p : Fin 10000) (k : Fin 128) :
    val_main_v8 (F := Ideal) x0 x1 x2 x3 (ix2 p (lo k)) = val_main_v7 (F := Ideal) x0 x1 x2 x3 (ix2 p k) :=
  Cert.Lib.concat_cols_left (val_main_v7 (F := Ideal) x0 x1 x2 x3) (val_main_v6 (F := Ideal) x0 x1 x2 x3)
    concatenates_S10000x128_S10000x128_S10000x256_d1 p k (lo k) rfl

theorem v8_hi (x0 : (⟨S10000x10000, .f32⟩ : BufTy).Contents (Elt Ideal)) (x1 : (⟨S10000x128, .f32⟩ : BufTy).Contents (Elt Ideal))
    (x2 : (⟨S256x128, .f32⟩ : BufTy).Contents (Elt Ideal)) (x3 : (⟨S128, .f32⟩ : BufTy).Contents (Elt Ideal))
    (p : Fin 10000) (k : Fin 128) :
    val_main_v8 (F := Ideal) x0 x1 x2 x3 (ix2 p (hi k)) = hiddenArr x0 x1 x2 x3 (ix2 p k) :=
  (Cert.Lib.concat_cols_right (val_main_v7 (F := Ideal) x0 x1 x2 x3) (val_main_v6 (F := Ideal) x0 x1 x2 x3)
    concatenates_S10000x128_S10000x128_S10000x256_d1 p k (hi k) rfl).trans (congrFun (ref_hidden x0 x1 x2 x3) (ix2 p k))

theorem v9_at (x0 : (⟨S10000x10000, .f32⟩ : BufTy).Contents (Elt Ideal)) (x1 : (⟨S10000x128, .f32⟩ : BufTy).Contents (Elt Ideal))
    (x2 : (⟨S256x128, .f32⟩ : BufTy).Contents (Elt Ideal)) (x3 : (⟨S128, .f32⟩ : BufTy).Contents (Elt Ideal))
    (x4 : (⟨S256x64, .f32⟩ : BufTy).Contents (Elt Ideal)) (p : Fin 10000) (r : Fin 64) :
    val_main_v9 (F := Ideal) x0 x1 x2 x3 x4 (ix2 p r)
      = (∑ k : Fin 128, (∑ j : Fin 10000, x0 (ix2 p j) * hiddenArr x0 x1 x2 x3 (ix2 j k)) * top x4 k r)
          + ∑ k : Fin 128, hiddenArr x0 x1 x2 x3 (ix2 p k) * bot x4 k r := by
  rw [val_main_v9_apply]
  have h : ∀ k : Fin 256, val_main_v8 (F := Ideal) x0 x1 x2 x3 (lidx_main_v9 (ix2 p r) k) * x4 (ridx_main_v9 (ix2 p r) k)
      = val_main_v8 (F := Ideal) x0 x1 x2 x3 (ix2 p k) * x4 (ix2 k r) := fun k => by rw [lidx_v9, ridx_v9]
  rw [Finset.sum_congr rfl fun k _ => h k, sum_join]
  congr 1
  · refine Finset.sum_congr rfl fun k _ => ?_
    rw [v8_lo, v7_at]
    rfl
  · refine Finset.sum_congr rfl fun k _ => ?_
    rw [v8_hi]
    rfl

theorem v11_at (x5 : (⟨S64, .f32⟩ : BufTy).Contents (Elt Ideal)) (p : Fin 10000) (r : Fin 64) :
    val_main_v11 (F := Ideal) x5 (ix2 p r) = x5 (ix1 r) := by
  rw [val_main_v11_apply, val_main_v10_apply, bias_idx_v11]

/-- The reference's result is the second layer over the hidden features. -/
theorem ref_out (x0 : (⟨S10000x10000, .f32⟩ : BufTy).Contents (Elt Ideal)) (x1 : (⟨S10000x128, .f32⟩ : BufTy).Contents (Elt Ideal))
    (x2 : (⟨S256x128, .f32⟩ : BufTy).Contents (Elt Ideal)) (x3 : (⟨S128, .f32⟩ : BufTy).Contents (Elt Ideal))
    (x4 : (⟨S256x64, .f32⟩ : BufTy).Contents (Elt Ideal)) (x5 : (⟨S64, .f32⟩ : BufTy).Contents (Elt Ideal)) :
    val_main_v12 (F := Ideal) x0 x1 x2 x3 x4 x5 = Cert.Gcn.outArr x0 x1 x2 x3 x4 x5 := by
  funext i
  obtain ⟨p, r, rfl⟩ : ∃ (p : Fin 10000) (r : Fin 64), i = ix2 p r := ⟨i 0, i 1, eq_ix2 i⟩
  rw [val_main_v12_apply, v9_at, v11_at, outArr_apply]
  rfl

end Cert.Gcn.Ref

end
-- ==== Proof.lean ====
/-
  Two stacked graph-convolution layers: a row-tiled kernel program against its array-level reference.

  With S the dense 10000 by 10000 matrix, X the 10000 by 128 features, W1 (256 by 128), b1, W2 (256 by 64), b2, both
  programs compute  relu([S X, X] W1 + b1) =: H  and then  [S H, H] W2 + b2 , where [A, B] joins two matrices along
  their columns. The reference forms the joined 256-column matrix and multiplies it with the uncut weight matrix. The
  kernel program never joins: per tile of 400 rows it multiplies the aggregated rows S X with the first 128 rows of
  the weight matrix, the plain rows X with the last 128, and adds — the sum over the 256 joined columns is the sum over
  its first 128 plus the sum over its last 128. Over the extended reals this uses only that addition is associative
  and commutative, so the precondition (finite inputs) is never opened; the kernel's changes of float format are the
  identity there.

  The three frames: each of the two kernel programs runs its two passes between host operations, every pass's 25
  tiles terminating without a fault and writing only the pass's result array (Proof/RunKernel.lean,
  Proof/RunKernelIdeal.lean, over Proof/BodyKernel.lean, Proof/BodyKernelIdeal.lean); the reference is host operations
  only. The idealized kernel program is the kernel program's own text read over the extended reals: nothing was
  rewritten, so there is nothing to preserve. The two results agree: the kernel program's result array is the
  two-layer function of the arguments (Proof/ValueKernelIdeal.lean, Proof/PayloadIdeal.lean) and so is the
  reference's (Proof/RefIsSpec.lean), the function being Proof/Spec.lean's `outArr`.
-/
import proofs.«133459_g36893769073013_cont_8to1_b_1682_2_alg».proof.Defs
import proofs.«133459_g36893769073013_cont_8to1_b_1682_2_alg».proof.Proof.Gen.Kernel
import proofs.«133459_g36893769073013_cont_8to1_b_1682_2_alg».proof.Proof.Gen.KernelIdeal
import proofs.«133459_g36893769073013_cont_8to1_b_1682_2_alg».proof.Proof.Gen.ReferenceIdeal
import proofs.«133459_g36893769073013_cont_8to1_b_1682_2_alg».proof.Proof.Gen.Pre_finite_inputs
import proofs.«133459_g36893769073013_cont_8to1_b_1682_2_alg».proof.Proof.Gen.ReferenceIdeal.Run
import proofs.«133459_g36893769073013_cont_8to1_b_1682_2_alg».proof.Proof.Gen.ReferenceIdeal.Read
import proofs.«133459_g36893769073013_cont_8to1_b_1682_2_alg».proof.Proof.RunKernel
import proofs.«133459_g36893769073013_cont_8to1_b_1682_2_alg».proof.Proof.RunKernelIdeal
import proofs.«133459_g36893769073013_cont_8to1_b_1682_2_alg».proof.Proof.ValueKernelIdeal
import proofs.«133459_g36893769073013_cont_8to1_b_1682_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments as launched. -/
theorem frame_kernel : @Cert.frame_Kernel Cert.Kernel.Gen.facts Cert.Pre_finite_inputs.Gen.facts :=
  fun m ρ _ => Cert.Kernel.Hand.frame m ρ

/-- So does the same program read over the extended reals. -/
theorem frame_kernelIdeal : @Cert.frame_KernelIdeal Cert.KernelIdeal.Gen.facts Cert.Pre_finite_inputs.Gen.facts :=
  fun m ρ _ => Cert.KernelIdeal.Hand.frame m ρ

/-- The reference is host operations only: its run, with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments, both programs end with the result array at the two-layer function of the
    arguments: the kernel program's two passes leave it there, and the reference's term is that function. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Gcn.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    (θ_run Cert.KernelIdeal.defs _ _).mono (fun r h c => ⟨(h c).1.trans (Cert.KernelIdeal.Hand.res_eq m c), (h c).2⟩)
      (Cert.KernelIdeal.Hand.run m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.Gcn.Ref.ref_out, (hagree c).1, (hagree c).2.1, (hagree c).2.2.1,
    (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
